-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x16 : Shape := ⟨2, ![64, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg19 : FVec F S10 .f32) (main_v83 : IVec S_ 1) (main_v84 : FVec F S16x10 .f32) (main_cst_32 : FVec F S_ .f32) : IVec S_ 1 :=
  let main_v85 : FVec F S16x10 .f32 := broadcastInDim S16x10 ![] bcast_S_S16x10 main_cst_32
  let main_v86 : IVec S16x10 1 := cmpf .olt main_v84 main_v85
  let main_c_33 : IVec S_ 1 := constantI S_ 1 1#1
  let main_v87 : IVec S_ 1 := (fun x v => Host.reduce IntOp.andi x v reducesTo_S16x10_S_d0_1 h_S_) main_v86 main_c_33
  let main_v88 : IVec S_ 1 := andi main_v83 main_v87
  let main_v89 : FVec F S10 .f32 := Host.absf main_arg19
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  main_v93

def fn_part4 {F : FTy → Type} [FloatOps F] (main_arg15 : FVec F S16 .f32) (main_arg16 : FVec F S16 .f32) (main_arg17 : FVec F S16 .f32) (main_arg18 : FVec F S16x10 .f32) (main_arg19 : FVec F S10 .f32) (main_v63 : IVec S_ 1) (main_v67 : IVec S_ 1) : IVec S_ 1 :=
  let main_v68 : IVec S_ 1 := andi main_v63 main_v67
  let main_v69 : FVec F S16 .f32 := Host.absf main_arg15
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16 .f32 := Host.absf main_arg16
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16 .f32 := Host.absf main_arg17
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16x10 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S16x16 .f32) (main_arg13 : FVec F S16 .f32) (main_arg14 : FVec F S16 .f32) (main_arg15 : FVec F S16 .f32) (main_arg16 : FVec F S16 .f32) (main_arg17 : FVec F S16 .f32) (main_arg18 : FVec F S16x10 .f32) (main_arg19 : FVec F S10 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x16 .f32 := Host.absf main_arg12
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16 .f32 := Host.absf main_arg14
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg15 main_arg16 main_arg17 main_arg18 main_arg19 main_v63 main_v67

def fn_part2 {F : FTy → Type} [FloatOps F] (main_arg8 : FVec F S16 .f32) (main_arg9 : FVec F S16 .f32) (main_arg10 : FVec F S16x16 .f32) (main_arg11 : FVec F S16 .f32) (main_arg12 : FVec F S16x16 .f32) (main_arg13 : FVec F S16 .f32) (main_arg14 : FVec F S16 .f32) (main_arg15 : FVec F S16 .f32) (main_arg16 : FVec F S16 .f32) (main_arg17 : FVec F S16 .f32) (main_arg18 : FVec F S16x10 .f32) (main_arg19 : FVec F S10 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg10
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_arg14 main_arg15 main_arg16 main_arg17 main_arg18 main_arg19 main_v48 main_v49 main_v50

def fn_part1 {F : FTy → Type} [FloatOps F] (main_arg5 : FVec F S16 .f32) (main_arg6 : FVec F S16 .f32) (main_arg7 : FVec F S16 .f32) (main_arg8 : FVec F S16 .f32) (main_arg9 : FVec F S16 .f32) (main_arg10 : FVec F S16x16 .f32) (main_arg11 : FVec F S16 .f32) (main_arg12 : FVec F S16x16 .f32) (main_arg13 : FVec F S16 .f32) (main_arg14 : FVec F S16 .f32) (main_arg15 : FVec F S16 .f32) (main_arg16 : FVec F S16 .f32) (main_arg17 : FVec F S16 .f32) (main_arg18 : FVec F S16x10 .f32) (main_arg19 : FVec F S10 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x64 .f32) (main_arg1 : IVec S2x1600000 32) (main_arg2 : FVec F S64x16 .f32) (main_arg3 : FVec F S16 .f32) (main_arg4 : FVec F S16x16 .f32) (main_arg5 : FVec F S16 .f32) (main_arg6 : FVec F S16 .f32) (main_arg7 : FVec F S16 .f32) (main_arg8 : FVec F S16 .f32) (main_arg9 : FVec F S16 .f32) (main_arg10 : FVec F S16x16 .f32) (main_arg11 : FVec F S16 .f32) (main_arg12 : FVec F S16x16 .f32) (main_arg13 : FVec F S16 .f32) (main_arg14 : FVec F S16 .f32) (main_arg15 : FVec F S16 .f32) (main_arg16 : FVec F S16 .f32) (main_arg17 : FVec F S16 .f32) (main_arg18 : FVec F S16x10 .f32) (main_arg19 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x16 .f32 := Host.absf main_arg2
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S2x1600000 : Shape := ⟨2, ![2, 1600000]⟩
abbrev S64x16 : Shape := ⟨2, ![64, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x16 : Shape := ⟨2, ![1, 16]⟩
abbrev S100000x16 : Shape := ⟨2, ![100000, 16]⟩
abbrev S5000x64 : Shape := ⟨2, ![5000, 64]⟩
abbrev S5000x16 : Shape := ⟨2, ![5000, 16]⟩
abbrev S1600000x16 : Shape := ⟨2, ![1600000, 16]⟩
abbrev S1x10 : Shape := ⟨2, ![1, 10]⟩
abbrev S100000x10 : Shape := ⟨2, ![100000, 10]⟩
abbrev S5000x10 : Shape := ⟨2, ![5000, 10]⟩
abbrev S5000 : Shape := ⟨1, ![5000]⟩
abbrev S5000x1 : Shape := ⟨2, ![5000, 1]⟩

abbrev nBuf : Space → Nat
  | .hbm => 65
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S16x16, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S16x10, .f32⟩
  | .hbm, ⟨19, _⟩ => ⟨S10, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S1x16, .f32⟩
  | .hbm, ⟨38, _⟩ => ⟨S1x16, .f32⟩
  | .hbm, ⟨39, _⟩ => ⟨S1x16, .f32⟩
  | .hbm, ⟨40, _⟩ => ⟨S1x16, .f32⟩
  | .hbm, ⟨41, _⟩ => ⟨S1x16, .f32⟩
  | .hbm, ⟨42, _⟩ => ⟨S1x16, .f32⟩
  | .hbm, ⟨43, _⟩ => ⟨S100000x16, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x16, .f32⟩
  | .hbm, ⟨53, _⟩ => ⟨S_, .f32⟩
  | .hbm, ⟨54, _⟩ => ⟨S100000x16, .f32⟩
  | .hbm, ⟨55, _⟩ => ⟨S1600000x1, .i32⟩
  | .hbm, ⟨56, _⟩ => ⟨S100000x16, .f32⟩
  | .hbm, ⟨57, _⟩ => ⟨S1x16, .f32⟩
  | .hbm, ⟨58, _⟩ => ⟨S1x16, .f32⟩
  | .hbm, ⟨59, _⟩ => ⟨S1x16, .f32⟩
  | .hbm, ⟨60, _⟩ => ⟨S1x16, .f32⟩
  | .hbm, ⟨61, _⟩ => ⟨S1x16, .f32⟩
  | .hbm, ⟨62, _⟩ => ⟨S1x16, .f32⟩
  | .hbm, ⟨63, _⟩ => ⟨S1x10, .f32⟩
  | .hbm, ⟨64, _⟩ => ⟨S100000x10, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x16, .f32⟩
  | .local _ .vmem, ⟨5, _⟩ => ⟨S1x16, .f32⟩
  | .local _ .vmem, ⟨6, _⟩ => ⟨S16x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S1x16, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x16, .f32⟩
  | .local _ .vmem, ⟨19, _⟩ => ⟨S1x16, .f32⟩
  | .local _ .vmem, ⟨20, _⟩ => ⟨S16x16, .f32⟩
  | .local _ .vmem, ⟨21, _⟩ => ⟨S1x16, .f32⟩
  | .local _ .vmem, ⟨22, _⟩ => ⟨S1x16, .f32⟩
  | .local _ .vmem, ⟨23, _⟩ => ⟨S1x16, .f32⟩
  | .local _ .vmem, ⟨24, _⟩ => ⟨S1x16, .f32⟩
  | .local _ .vmem, ⟨25, _⟩ => ⟨S1x16, .f32⟩
  | .local _ .vmem, ⟨26, _⟩ => ⟨S16x10, .f32⟩
  | .local _ .vmem, ⟨27, _⟩ => ⟨S1x10, .f32⟩
  | .local _ .vmem, ⟨28, _⟩ => ⟨S5000x10, .f32⟩
  | .local _ .vmem, ⟨29, _⟩ => ⟨S5000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_1 : Ref sig .tc := ⟨.hbm, 44, rfl⟩
abbrev main_v21 : Ref sig .tc := ⟨.hbm, 45, rfl⟩
abbrev main_v22 : Ref sig .tc := ⟨.hbm, 46, rfl⟩
abbrev main_c_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg12_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem12_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S16x10 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x10 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x10 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S16_S1x16 : S16.ShapeCasts S1x16
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S10_S1x10 : S10.ShapeCasts S1x10
  shapeCasts_S5000x16_S5000x16 : S5000x16.ShapeCasts S5000x16
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x16_S5000x16_1_0_0_1_n_n_wf : DotDims.WF S5000x64 S64x16 S5000x16 [1] [0] [0] [1] [] []
  dot_S5000x16_S16x16_S5000x16_1_0_0_1_n_n_wf : DotDims.WF S5000x16 S16x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x10_S5000x10_1_0_0_1_n_n_wf : DotDims.WF S5000x16 S16x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x16.size a ≤ S100000x16.size a
  hwx0_10 : ∀ i : grid0.Coords, EltTy.bits .f32 = 32 ∨ (Rect.block (s := S100000x16) S5000x16.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x16.size a ≤ S1x16.size a
  hwx1_7 : ∀ i : grid1.Coords, EltTy.bits .f32 = 32 ∨ (Rect.block (s := S1x16) S1x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x16.size a ≤ S1x16.size a
  hwx1_8 : ∀ i : grid1.Coords, EltTy.bits .f32 = 32 ∨ (Rect.block (s := S1x16) S1x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x16.size a ≤ S1x16.size a
  hwx1_9 : ∀ i : grid1.Coords, EltTy.bits .f32 = 32 ∨ (Rect.block (s := S1x16) S1x16.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S16x10.size a ≤ S16x10.size a
  hwx1_10 : ∀ i : grid1.Coords, EltTy.bits .f32 = 32 ∨ (Rect.block (s := S16x10) S16x10.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x10.size a ≤ S1x10.size a
  hwx1_11 : ∀ i : grid1.Coords, EltTy.bits .f32 = 32 ∨ (Rect.block (s := S1x10) S1x10.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x10.size a ≤ S100000x10.size a
  hwx1_12 : ∀ i : grid1.Coords, EltTy.bits .f32 = 32 ∨ (Rect.block (s := S100000x10) S5000x10.size (cc1_transform_12 i) (hinb1_12 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x10_S5000x10_1_0_0_1_n_n : DotDims S5000x16 S16x10 S5000x10 where
  lhsContracting := [1]
  rhsContracting := [0]
  lhsNonContracting := [0]
  rhsNonContracting := [1]
  lhsBatch := []
  rhsBatch := []
  wf := dot_S5000x16_S16x10_S5000x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S5000x16.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S1x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg18) S16x10.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v37) S1x10.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v38) S5000x10.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x16 : Shape := ⟨2, ![64, 16]⟩
abbrev S16 : Shape := ⟨1, ![16]⟩
abbrev S16x16 : Shape := ⟨2, ![16, 16]⟩
abbrev S16x10 : Shape := ⟨2, ![16, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x16 : Shape := ⟨2, ![100000, 16]⟩
abbrev S1x16 : Shape := ⟨2, ![1, 16]⟩
abbrev S1600000x16 : Shape := ⟨2, ![1600000, 16]⟩
abbrev S100000x10 : Shape := ⟨2, ![100000, 10]⟩
abbrev S1x10 : Shape := ⟨2, ![1, 10]⟩
abbrev S100000 : Shape := ⟨1, ![100000]⟩
abbrev S100000x1 : Shape := ⟨2, ![100000, 1]⟩

abbrev nBuf : Space → Nat
  | .hbm => 131
  | .vmem => 0
  | .smem => 0
  | _ => 0

abbrev hbmTy0_0 (i : Nat) : BufTy := match i % 128 with
  | 0 => ⟨S100000x64, .f32⟩
  | 1 => ⟨S2x1600000, .i32⟩
  | 2 => ⟨S64x16, .f32⟩
  | 3 => ⟨S16, .f32⟩
  | 4 => ⟨S16x16, .f32⟩
  | 5 => ⟨S16, .f32⟩
  | 6 => ⟨S16, .f32⟩
  | 7 => ⟨S16, .f32⟩
  | 8 => ⟨S16, .f32⟩
  | 9 => ⟨S16, .f32⟩
  | 10 => ⟨S16x16, .f32⟩
  | 11 => ⟨S16, .f32⟩
  | 12 => ⟨S16x16, .f32⟩
  | 13 => ⟨S16, .f32⟩
  | 14 => ⟨S16, .f32⟩
  | 15 => ⟨S16, .f32⟩
  | 16 => ⟨S16, .f32⟩
  | 17 => ⟨S16, .f32⟩
  | 18 => ⟨S16x10, .f32⟩
  | 19 => ⟨S10, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S_, .f32⟩
  | 34 => ⟨S100000x64, .f32⟩
  | 35 => ⟨S1600000x1, .i32⟩
  | 36 => ⟨S100000x64, .f32⟩
  | 37 => ⟨S100000x64, .f32⟩
  | 38 => ⟨S100000x16, .f32⟩
  | 39 => ⟨S1x16, .f32⟩
  | 40 => ⟨S100000x16, .f32⟩
  | 41 => ⟨S100000x16, .f32⟩
  | 42 => ⟨S_, .f32⟩
  | 43 => ⟨S100000x16, .f32⟩
  | 44 => ⟨S100000x16, .f32⟩
  | 45 => ⟨S100000x16, .f32⟩
  | 46 => ⟨S1x16, .f32⟩
  | 47 => ⟨S100000x16, .f32⟩
  | 48 => ⟨S100000x16, .f32⟩
  | 49 => ⟨S_, .f32⟩
  | 50 => ⟨S100000x16, .f32⟩
  | 51 => ⟨S100000x16, .f32⟩
  | 52 => ⟨S1x16, .f32⟩
  | 53 => ⟨S100000x16, .f32⟩
  | 54 => ⟨S100000x16, .f32⟩
  | 55 => ⟨S_, .f32⟩
  | 56 => ⟨S16, .f32⟩
  | 57 => ⟨S16, .f32⟩
  | 58 => ⟨S16, .f32⟩
  | 59 => ⟨S16, .f32⟩
  | 60 => ⟨S1x16, .f32⟩
  | 61 => ⟨S100000x16, .f32⟩
  | 62 => ⟨S100000x16, .f32⟩
  | 63 => ⟨S1x16, .f32⟩
  | 64 => ⟨S100000x16, .f32⟩
  | 65 => ⟨S100000x16, .f32⟩
  | 66 => ⟨S1x1600000, .i32⟩
  | 67 => ⟨S1600000, .i32⟩
  | 68 => ⟨S1x1600000, .i32⟩
  | 69 => ⟨S1600000, .i32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x16, .f32⟩
  | 79 => ⟨S_, .f32⟩
  | 80 => ⟨S100000x16, .f32⟩
  | 81 => ⟨S1600000x1, .i32⟩
  | 82 => ⟨S100000x16, .f32⟩
  | 83 => ⟨S100000x16, .f32⟩
  | 84 => ⟨S100000x16, .f32⟩
  | 85 => ⟨S1x16, .f32⟩
  | 86 => ⟨S100000x16, .f32⟩
  | 87 => ⟨S100000x16, .f32⟩
  | 88 => ⟨S_, .f32⟩
  | 89 => ⟨S100000x16, .f32⟩
  | 90 => ⟨S100000x16, .f32⟩
  | 91 => ⟨S100000x16, .f32⟩
  | 92 => ⟨S1x16, .f32⟩
  | 93 => ⟨S100000x16, .f32⟩
  | 94 => ⟨S100000x16, .f32⟩
  | 95 => ⟨S_, .f32⟩
  | 96 => ⟨S100000x16, .f32⟩
  | 97 => ⟨S100000x16, .f32⟩
  | 98 => ⟨S1x16, .f32⟩
  | 99 => ⟨S100000x16, .f32⟩
  | 100 => ⟨S100000x16, .f32⟩
  | 101 => ⟨S_, .f32⟩
  | 102 => ⟨S16, .f32⟩
  | 103 => ⟨S16, .f32⟩
  | 104 => ⟨S16, .f32⟩
  | 105 => ⟨S16, .f32⟩
  | 106 => ⟨S1x16, .f32⟩
  | 107 => ⟨S100000x16, .f32⟩
  | 108 => ⟨S100000x16, .f32⟩
  | 109 => ⟨S1x16, .f32⟩
  | 110 => ⟨S100000x16, .f32⟩
  | 111 => ⟨S100000x16, .f32⟩
  | 112 => ⟨S100000x10, .f32⟩
  | 113 => ⟨S1x10, .f32⟩
  | 114 => ⟨S100000x10, .f32⟩
  | 115 => ⟨S100000x10, .f32⟩
  | 116 => ⟨S_, .f32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x10, .f32⟩
  | 123 => ⟨S100000x10, .f32⟩
  | 124 => ⟨S100000x10, .f32⟩
  | 125 => ⟨S_, .f32⟩
  | 126 => ⟨S100000, .f32⟩
  | 127 => ⟨S100000x1, .f32⟩
  | _ => ⟨S100000x64, .f32⟩

abbrev hbmTy0_1 (i : Nat) : BufTy := match i % 128 with
  | 0 => ⟨S100000x1, .f32⟩
  | 1 => ⟨S100000x10, .f32⟩
  | 2 => ⟨S100000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_4 : Ref sig .tc := ⟨.hbm, 70, rfl⟩
abbrev main_v44 : Ref sig .tc := ⟨.hbm, 71, rfl⟩
abbrev main_v45 : Ref sig .tc := ⟨.hbm, 72, rfl⟩
abbrev main_c_5 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_8 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call0_cst : Ref sig .tc := ⟨.hbm, 116, rfl⟩
abbrev main_call0_v0 : Ref sig .tc := ⟨.hbm, 117, rfl⟩
abbrev main_call0_cst_0 : Ref sig .tc := ⟨.hbm, 118, rfl⟩
abbrev main_call0_v1 : Ref sig .tc := ⟨.hbm, 119, rfl⟩
abbrev main_call0_v2 : Ref sig .tc := ⟨.hbm, 120, rfl⟩
abbrev main_call0_v3 : Ref sig .tc := ⟨.hbm, 121, rfl⟩
abbrev main_call0_v4 : Ref sig .tc := ⟨.hbm, 122, rfl⟩
abbrev main_call0_v5 : Ref sig .tc := ⟨.hbm, 123, rfl⟩
abbrev main_call0_v6 : Ref sig .tc := ⟨.hbm, 124, rfl⟩
abbrev main_call0_cst_1 : Ref sig .tc := ⟨.hbm, 125, rfl⟩
abbrev main_call0_v7 : Ref sig .tc := ⟨.hbm, 126, rfl⟩
abbrev main_call0_v8 : Ref sig .tc := ⟨.hbm, 127, rfl⟩
abbrev main_call0_v9 : Ref sig .tc := ⟨.hbm, 128, rfl⟩
abbrev main_call0_v10 : Ref sig .tc := ⟨.hbm, 129, rfl⟩
abbrev main_v84 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S_S16 : S_.BroadcastsInDim S16 (![] : Fin 0 → Fin S16.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  dot_S100000x16_S16x16_S100000x16_1_0_0_1_n_n_wf : DotDims.WF S100000x16 S16x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x10_S100000x10_1_0_0_1_n_n_wf : DotDims.WF S100000x16 S16x10 S100000x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf

class Facts : Prop extends Facts₀ where

variable [Facts]
-- ==== Proof.KernelRun.lean ====
/-
  The idealized program's run with its result array named.

  The program is two node-block kernels among host operations.  Every weakly fair execution ends; at the end the
  result array holds what the second kernel's write-backs leave in it, and the argument arrays are as launched.  The
  contents of every buffer at the four boundaries between the stretches are a fold through the program: the host
  operations' composed results, then the first kernel's arrays after its write-backs, then the second stretch, then
  the second kernel's arrays after its write-backs.  This module runs the launch over those segments and reads the
  result array, together with the arguments, off the last boundary.
-/
import proofs.«145324_j15719580303915_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result array ends at the last boundary's
    contents of its buffer, and every argument array as launched. -/
theorem run_out : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c)⟩)

end Cert.KernelIdeal.RunValue

end
-- ==== Proof.Spec.lean ====
/-
  The network, row by row, over the extended reals.

  One node's output depends on that node's own feature row and its aggregated neighbour row only, through the layer's
  weight matrices and per-channel vectors.  A dense layer of a row s is  j ↦ ∑ₖ s k · w k j + b j ;  the two-layer
  perceptron of a graph-isomorphism layer is  relu (dense (relu (dense s wa ba)) wb bb) ;  the layer adds the node's row
  to its neighbours' sum first and normalises each channel afterwards,
  (h − mean) · (gamma · rsqrt (var + ε)) + beta .  The classifier head is a dense layer to ten logits followed by the
  log-softmax of the row:  lᶜ − M − log ∑ₖ exp (lₖ − M)  with M the largest logit.  Every literal (0, ε, −∞) is kept as the
  value its binary word denotes; none of them is ever evaluated.
-/
import Idealize.ShloMosaic.PureOps.Ideal
import Mathlib.Data.Finset.Fold

noncomputable section

open scoped BigOperators

namespace Cert.GinNet

open Idealize.ShloMosaic

/-- The value of the zero word. -/
abbrev zero : EReal := Ideal.ofBits .f32 0x00000000#32
/-- The value of the normalisation's ε word. -/
abbrev eps : EReal := Ideal.ofBits .f32 0x3727C5AC#32
/-- The value of the −∞ word, the start of a running maximum. -/
abbrev negInf : EReal := Ideal.ofBits .f32 0xFF800000#32

/-- A dense layer applied to one row. -/
def dense {K B : ℕ} (s : Fin K → EReal) (w : Fin K → Fin B → EReal) (b : Fin B → EReal) (j : Fin B) : EReal :=
  (∑ k : Fin K, s k * w k j) + b j

/-- The two-layer perceptron of a row, a rectifier after each layer. -/
def mlp {K H B : ℕ} (s : Fin K → EReal) (wa : Fin K → Fin H → EReal) (ba : Fin H → EReal)
    (wb : Fin H → Fin B → EReal) (bb : Fin B → EReal) (j : Fin B) : EReal :=
  max (dense (fun k => max (dense s wa ba k) zero) wb bb j) zero

/-- One channel's normalisation. -/
def bnorm (h mean gamma var beta : EReal) : EReal :=
  (h - mean) * (gamma * Ideal.rsqrt (var + eps)) + beta

/-- One graph-isomorphism layer on a node: its own row plus its neighbours' sum, through the perceptron, normalised. -/
def layer {K H B : ℕ} (xr ar : Fin K → EReal) (wa : Fin K → Fin H → EReal) (ba : Fin H → EReal)
    (wb : Fin H → Fin B → EReal) (bb : Fin B → EReal) (gamma beta mean var : Fin B → EReal) (j : Fin B) : EReal :=
  bnorm (mlp (fun k => xr k + ar k) wa ba wb bb j) (mean j) (gamma j) (var j) (beta j)

/-- The largest entry of a row, from −∞. -/
def rowMax {n : ℕ} (l : Fin n → EReal) : EReal := (Finset.univ : Finset (Fin n)).fold max negInf l

/-- The log-softmax of a row. -/
def logSoftmax {n : ℕ} (l : Fin n → EReal) (c : Fin n) : EReal :=
  (l c - rowMax l) - Ideal.log (∑ k : Fin n, Ideal.exp (l k - rowMax l))

/-- The classifier head on a node's row: ten logits, then their log-softmax. -/
def head {K n : ℕ} (h : Fin K → EReal) (fw : Fin K → Fin n → EReal) (fb : Fin n → EReal) (c : Fin n) : EReal :=
  logSoftmax (dense h fw fb) c

/-- The second layer and the head on a node, from the first layer's row of the node and of its neighbours' sum. -/
def top {K H B n : ℕ} (hr ar : Fin K → EReal) (wa : Fin K → Fin H → EReal) (ba : Fin H → EReal)
    (wb : Fin H → Fin B → EReal) (bb : Fin B → EReal) (gamma beta mean var : Fin B → EReal)
    (fw : Fin B → Fin n → EReal) (fb : Fin n → EReal) (c : Fin n) : EReal :=
  head (layer hr ar wa ba wb bb gamma beta mean var) fw fb c

/-- A running maximum started from a value is at least that value, so taking the maximum with it again changes nothing. -/
theorem max_rowMax {n : ℕ} (l : Fin n → EReal) : max negInf (rowMax l) = rowMax l :=
  max_eq_right ((Finset.le_fold_max _).mpr (Or.inl le_rfl))

end Cert.GinNet

end
-- ==== Proof.ArraySpec.lean ====
/-
  The network on whole node tables.

  A graph-isomorphism layer applied to every node: entry (r, j) of the result is the layer of row r of the feature table
  and row r of the neighbour-sum table, channel j.  The second layer with the classifier head likewise: entry (r, c) is
  the head's log-softmax at class c of the second layer of row r.  Row r of a table is all a node's entry depends on, so
  a block of rows of the result is the same function of the same block of rows of the two tables.
-/
import Idealize.ShloMosaic.Lib.ValueIdx
import proofs.«145324_j15719580303915_1_alg».proof.Proof.Spec

noncomputable section

namespace Cert.GinNet

open Idealize.ShloMosaic Idealize.ShloMosaic.ValueIdx

variable {N K H B n : ℕ}

/-- Row `r` of a table. -/
abbrev row (x : (⟨2, ![N, K]⟩ : Shape).Idx → EReal) (r : Fin N) : Fin K → EReal := fun k => x (ix2 r k)

/-- A matrix as a function of its two coordinates. -/
abbrev mat (w : (⟨2, ![K, H]⟩ : Shape).Idx → EReal) : Fin K → Fin H → EReal := fun k j => w (ix2 k j)

/-- A one-row matrix as a function of its column. -/
abbrev row0 (v : (⟨2, ![1, B]⟩ : Shape).Idx → EReal) : Fin B → EReal := fun j => v (ix2 (0 : Fin 1) j)

/-- A vector as a function of its coordinate. -/
abbrev vec (v : (⟨1, ![B]⟩ : Shape).Idx → EReal) : Fin B → EReal := fun j => v (ix1 j)

/-- The layer on every node of a table. -/
def layerArr (x agg : (⟨2, ![N, K]⟩ : Shape).Idx → EReal) (wa : Fin K → Fin H → EReal) (ba : Fin H → EReal)
    (wb : Fin H → Fin B → EReal) (bb gamma beta mean var : Fin B → EReal) : (⟨2, ![N, B]⟩ : Shape).Idx → EReal :=
  fun i => layer (row x ⟨(i 0).val, idx2_lt0 i⟩) (row agg ⟨(i 0).val, idx2_lt0 i⟩) wa ba wb bb gamma beta mean var
    ⟨(i 1).val, idx2_lt1 i⟩

theorem layerArr_apply (x agg : (⟨2, ![N, K]⟩ : Shape).Idx → EReal) (wa : Fin K → Fin H → EReal) (ba : Fin H → EReal)
    (wb : Fin H → Fin B → EReal) (bb gamma beta mean var : Fin B → EReal) (r : Fin N) (q : Fin B) :
    layerArr x agg wa ba wb bb gamma beta mean var (ix2 r q) = layer (row x r) (row agg r) wa ba wb bb gamma beta mean var q :=
  rfl

/-- The second layer and the classifier head on every node of a table. -/
def topArr (h agg : (⟨2, ![N, K]⟩ : Shape).Idx → EReal) (wa : Fin K → Fin H → EReal) (ba : Fin H → EReal)
    (wb : Fin H → Fin B → EReal) (bb gamma beta mean var : Fin B → EReal) (fw : Fin B → Fin n → EReal) (fb : Fin n → EReal) :
    (⟨2, ![N, n]⟩ : Shape).Idx → EReal :=
  fun i => top (row h ⟨(i 0).val, idx2_lt0 i⟩) (row agg ⟨(i 0).val, idx2_lt0 i⟩) wa ba wb bb gamma beta mean var fw fb
    ⟨(i 1).val, idx2_lt1 i⟩

theorem topArr_apply (h agg : (⟨2, ![N, K]⟩ : Shape).Idx → EReal) (wa : Fin K → Fin H → EReal) (ba : Fin H → EReal)
    (wb : Fin H → Fin B → EReal) (bb gamma beta mean var : Fin B → EReal) (fw : Fin B → Fin n → EReal) (fb : Fin n → EReal)
    (r : Fin N) (c : Fin n) :
    topArr h agg wa ba wb bb gamma beta mean var fw fb (ix2 r c)
      = top (row h r) (row agg r) wa ba wb bb gamma beta mean var fw fb c :=
  rfl

end Cert.GinNet

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«145324_j15719580303915_1_alg».proof.Proof.LibMatmul2
import proofs.«145324_j15719580303915_1_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.KernelBody0.lean ====
/-
  The first kernel's body at one entry.

  At a grid point the body holds a block of 5000 node rows of x and of the neighbour sums, and the whole parameter
  arrays.  Entry (p, q) of what it stores is the graph-isomorphism layer of row p of the two blocks, channel q:
  the rows are added, sent through the two dense layers with a rectifier after each, and channel q is normalised.
  The roundings to the narrow format on the way into each product are the identity on extended reals.
-/
import proofs.«145324_j15719580303915_1_alg».proof.Proof.Gen.KernelIdeal.Skeleton
import proofs.«145324_j15719580303915_1_alg».proof.Proof.Spec
import proofs.«145324_j15719580303915_1_alg».proof.Proof.LibEntryReads

noncomputable section

namespace Cert.KernelIdeal.Body

open Cert.KernelIdeal Cert.KernelIdeal.Gen Idealize.ShloMosaic Idealize.ShloMosaic.ValueIdx Cert.GinNet Cert.Lib

/-- Entry (p, q) of the first kernel's stored block is the layer applied to row p of its two row blocks. -/
theorem stage1_apply (x0 x1 : Vec Ideal S5000x64 .f32) (x2 : Vec Ideal S64x16 .f32) (x3 : Vec Ideal S1x16 .f32)
    (x4 : Vec Ideal S16x16 .f32) (x5 x6 x7 x8 x9 : Vec Ideal S1x16 .f32) (p : Fin 5000) (q : Fin 16) :
    k0_pay1 (k0_pay2 x6) (k0_pay3 x7) (k0_pay4 x9) (k0_pay5 x0 x1 x2 x3 x4 x5 x8) (Scalar.ofBits .f32 0x3727C5AC#32) (ix2 p q)
      = layer (fun k => x0 (ix2 p k)) (fun k => x1 (ix2 p k)) (fun k j => x2 (ix2 k j)) (fun j => x3 (ix2 0 j))
          (fun k j => x4 (ix2 k j)) (fun j => x5 (ix2 0 j)) (fun j => x6 (ix2 0 j)) (fun j => x7 (ix2 0 j))
          (fun j => x8 (ix2 0 j)) (fun j => x9 (ix2 0 j)) q := by
  unfold k0_pay1 k0_pay2 k0_pay3 k0_pay4 k0_pay5
  dsimp only
  simp only [shapeCast_self, addf_apply, subf_apply, mulf_apply, maximumf_apply, truncf_apply, broadcast_apply, rsqrt_apply,
    broadcastTo_1b_ab_apply,
    matmul_plain_apply dot_S5000x64_S64x16_S5000x16_1_0_0_1_n_n Facts₀.dot_S5000x64_S64x16_S5000x16_1_0_0_1_n_n_wf rfl,
    matmul_plain_apply dot_S5000x16_S16x16_S5000x16_1_0_0_1_n_n Facts₀.dot_S5000x16_S16x16_S5000x16_1_0_0_1_n_n_wf rfl]
  rfl

end Cert.KernelIdeal.Body

end
-- ==== Proof.KernelBlocks0.lean ====
/-
  The first kernel's result array as one function of the arrays the kernel finds.

  The grid has twenty points; point t stages rows 5000·t … 5000·t + 4999 of the feature table and of the neighbour-sum
  table, and the whole of every parameter array, and writes back rows 5000·t … 5000·t + 4999 of the result.  What it
  writes back is, entry by entry, the layer of the staged rows; a staged row p of point t is row 5000·t + p of the
  table.  So each write-back is a block of ONE whole-table function, the layer on every node, and since the twenty
  blocks cover the result array, the array ends holding that function.
-/
import proofs.«145324_j15719580303915_1_alg».proof.Proof.Gen.KernelIdeal.Frame
import proofs.«145324_j15719580303915_1_alg».proof.Proof.ArraySpec
import proofs.«145324_j15719580303915_1_alg».proof.Proof.KernelBody0
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.GinNet
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Where each window's block sits: the two tables and the result move with the grid point, a parameter stays put -/

theorem index0_0 : ∀ t : Fin cfg0.N, win0_0.index t (0 : Fin 2) = t.val ∧ win0_0.index t (1 : Fin 2) = 0 :=
  (by decide +kernel : ∀ t : Fin grid0.N, _)
theorem index0_1 : ∀ t : Fin cfg0.N, win0_1.index t (0 : Fin 2) = t.val ∧ win0_1.index t (1 : Fin 2) = 0 :=
  (by decide +kernel : ∀ t : Fin grid0.N, _)
theorem index0_10 : ∀ t : Fin cfg0.N, win0_10.index t (0 : Fin 2) = t.val ∧ win0_10.index t (1 : Fin 2) = 0 :=
  (by decide +kernel : ∀ t : Fin grid0.N, _)
theorem index0_2 : ∀ t : Fin cfg0.N, win0_2.index t (0 : Fin 2) = 0 ∧ win0_2.index t (1 : Fin 2) = 0 :=
  (by decide +kernel : ∀ t : Fin grid0.N, _)
theorem index0_3 : ∀ t : Fin cfg0.N, win0_3.index t (0 : Fin 2) = 0 ∧ win0_3.index t (1 : Fin 2) = 0 :=
  (by decide +kernel : ∀ t : Fin grid0.N, _)
theorem index0_4 : ∀ t : Fin cfg0.N, win0_4.index t (0 : Fin 2) = 0 ∧ win0_4.index t (1 : Fin 2) = 0 :=
  (by decide +kernel : ∀ t : Fin grid0.N, _)
theorem index0_5 : ∀ t : Fin cfg0.N, win0_5.index t (0 : Fin 2) = 0 ∧ win0_5.index t (1 : Fin 2) = 0 :=
  (by decide +kernel : ∀ t : Fin grid0.N, _)
theorem index0_6 : ∀ t : Fin cfg0.N, win0_6.index t (0 : Fin 2) = 0 ∧ win0_6.index t (1 : Fin 2) = 0 :=
  (by decide +kernel : ∀ t : Fin grid0.N, _)
theorem index0_7 : ∀ t : Fin cfg0.N, win0_7.index t (0 : Fin 2) = 0 ∧ win0_7.index t (1 : Fin 2) = 0 :=
  (by decide +kernel : ∀ t : Fin grid0.N, _)
theorem index0_8 : ∀ t : Fin cfg0.N, win0_8.index t (0 : Fin 2) = 0 ∧ win0_8.index t (1 : Fin 2) = 0 :=
  (by decide +kernel : ∀ t : Fin grid0.N, _)
theorem index0_9 : ∀ t : Fin cfg0.N, win0_9.index t (0 : Fin 2) = 0 ∧ win0_9.index t (1 : Fin 2) = 0 :=
  (by decide +kernel : ∀ t : Fin grid0.N, _)

/-- The table row that staged row `p` of grid point `t` is. -/
def rowAt0 (t : Fin cfg0.N) (p : Fin 5000) : Fin 100000 :=
  ⟨t.val * 5000 + p.val, by have := t.isLt; have h : cfg0.N = 20 := N_0; have := p.isLt; omega⟩

/-- Staged row `p` of the feature table at point `t` is table row `5000·t + p`. -/
theorem iblk0_0_apply (c : Dev nD) (t : Fin cfg0.N) (p : Fin 5000) (k : Fin 64) :
    (iblk0 V c 0 t : S5000x64.Idx → EReal) (ix2 p k) = (V c main_arg0 : S100000x64.Idx → EReal) (ix2 (rowAt0 t p) k) := by
  obtain ⟨e0, e1⟩ := index0_0 t
  show (V c main_arg0 : S100000x64.Idx → EReal) (((cfg0.win 0).blk t).view.emb (ix2 p k)) = _
  have h : (((cfg0.win 0).blk t).view.emb (ix2 p k) : S100000x64.Idx) = ix2 (rowAt0 t p) k := by
    funext a; apply Fin.ext
    match a with
    | ⟨0, _⟩ => show win0_0.index t (0 : Fin 2) * 5000 + 1 * p.val = t.val * 5000 + p.val; rw [e0]; omega
    | ⟨1, _⟩ => show win0_0.index t (1 : Fin 2) * 64 + 1 * k.val = k.val; rw [e1]; omega
  rw [h]

/-- Staged row `p` of the neighbour-sum table at point `t` is table row `5000·t + p`. -/
theorem iblk0_1_apply (c : Dev nD) (t : Fin cfg0.N) (p : Fin 5000) (k : Fin 64) :
    (iblk0 V c 1 t : S5000x64.Idx → EReal) (ix2 p k) = (V c main_v13 : S100000x64.Idx → EReal) (ix2 (rowAt0 t p) k) := by
  obtain ⟨e0, e1⟩ := index0_1 t
  show (V c main_v13 : S100000x64.Idx → EReal) (((cfg0.win 1).blk t).view.emb (ix2 p k)) = _
  have h : (((cfg0.win 1).blk t).view.emb (ix2 p k) : S100000x64.Idx) = ix2 (rowAt0 t p) k := by
    funext a; apply Fin.ext
    match a with
    | ⟨0, _⟩ => show win0_1.index t (0 : Fin 2) * 5000 + 1 * p.val = t.val * 5000 + p.val; rw [e0]; omega
    | ⟨1, _⟩ => show win0_1.index t (1 : Fin 2) * 64 + 1 * k.val = k.val; rw [e1]; omega
  rw [h]

/-! Each parameter window stages its whole array. -/

theorem iblk0_2_eq (c : Dev nD) (t : Fin cfg0.N) : (iblk0 V c 2 t : S64x16.Idx → EReal) = (V c main_arg2 : S64x16.Idx → EReal) := by
  obtain ⟨e0, e1⟩ := index0_2 t
  funext y
  show (V c main_arg2 : S64x16.Idx → EReal) (((cfg0.win 2).blk t).view.emb y) = _
  have h : (((cfg0.win 2).blk t).view.emb y : S64x16.Idx) = y := by
    funext a; apply Fin.ext
    match a with
    | ⟨0, _⟩ => show win0_2.index t (0 : Fin 2) * 64 + 1 * (y 0).val = (y 0).val; rw [e0]; omega
    | ⟨1, _⟩ => show win0_2.index t (1 : Fin 2) * 16 + 1 * (y 1).val = (y 1).val; rw [e1]; omega
  rw [h]

theorem iblk0_3_eq (c : Dev nD) (t : Fin cfg0.N) : (iblk0 V c 3 t : S1x16.Idx → EReal) = (V c main_v14 : S1x16.Idx → EReal) := by
  obtain ⟨e0, e1⟩ := index0_3 t
  funext y
  show (V c main_v14 : S1x16.Idx → EReal) (((cfg0.win 3).blk t).view.emb y) = _
  have h : (((cfg0.win 3).blk t).view.emb y : S1x16.Idx) = y := by
    funext a; apply Fin.ext
    match a with
    | ⟨0, _⟩ => show win0_3.index t (0 : Fin 2) * 1 + 1 * (y 0).val = (y 0).val; rw [e0]; omega
    | ⟨1, _⟩ => show win0_3.index t (1 : Fin 2) * 16 + 1 * (y 1).val = (y 1).val; rw [e1]; omega
  rw [h]

theorem iblk0_4_eq (c : Dev nD) (t : Fin cfg0.N) : (iblk0 V c 4 t : S16x16.Idx → EReal) = (V c main_arg4 : S16x16.Idx → EReal) := by
  obtain ⟨e0, e1⟩ := index0_4 t
  funext y
  show (V c main_arg4 : S16x16.Idx → EReal) (((cfg0.win 4).blk t).view.emb y) = _
  have h : (((cfg0.win 4).blk t).view.emb y : S16x16.Idx) = y := by
    funext a; apply Fin.ext
    match a with
    | ⟨0, _⟩ => show win0_4.index t (0 : Fin 2) * 16 + 1 * (y 0).val = (y 0).val; rw [e0]; omega
    | ⟨1, _⟩ => show win0_4.index t (1 : Fin 2) * 16 + 1 * (y 1).val = (y 1).val; rw [e1]; omega
  rw [h]

theorem iblk0_5_eq (c : Dev nD) (t : Fin cfg0.N) : (iblk0 V c 5 t : S1x16.Idx → EReal) = (V c main_v15 : S1x16.Idx → EReal) := by
  obtain ⟨e0, e1⟩ := index0_5 t
  funext y
  show (V c main_v15 : S1x16.Idx → EReal) (((cfg0.win 5).blk t).view.emb y) = _
  have h : (((cfg0.win 5).blk t).view.emb y : S1x16.Idx) = y := by
    funext a; apply Fin.ext
    match a with
    | ⟨0, _⟩ => show win0_5.index t (0 : Fin 2) * 1 + 1 * (y 0).val = (y 0).val; rw [e0]; omega
    | ⟨1, _⟩ => show win0_5.index t (1 : Fin 2) * 16 + 1 * (y 1).val = (y 1).val; rw [e1]; omega
  rw [h]

theorem iblk0_6_eq (c : Dev nD) (t : Fin cfg0.N) : (iblk0 V c 6 t : S1x16.Idx → EReal) = (V c main_v16 : S1x16.Idx → EReal) := by
  obtain ⟨e0, e1⟩ := index0_6 t
  funext y
  show (V c main_v16 : S1x16.Idx → EReal) (((cfg0.win 6).blk t).view.emb y) = _
  have h : (((cfg0.win 6).blk t).view.emb y : S1x16.Idx) = y := by
    funext a; apply Fin.ext
    match a with
    | ⟨0, _⟩ => show win0_6.index t (0 : Fin 2) * 1 + 1 * (y 0).val = (y 0).val; rw [e0]; omega
    | ⟨1, _⟩ => show win0_6.index t (1 : Fin 2) * 16 + 1 * (y 1).val = (y 1).val; rw [e1]; omega
  rw [h]

theorem iblk0_7_eq (c : Dev nD) (t : Fin cfg0.N) : (iblk0 V c 7 t : S1x16.Idx → EReal) = (V c main_v17 : S1x16.Idx → EReal) := by
  obtain ⟨e0, e1⟩ := index0_7 t
  funext y
  show (V c main_v17 : S1x16.Idx → EReal) (((cfg0.win 7).blk t).view.emb y) = _
  have h : (((cfg0.win 7).blk t).view.emb y : S1x16.Idx) = y := by
    funext a; apply Fin.ext
    match a with
    | ⟨0, _⟩ => show win0_7.index t (0 : Fin 2) * 1 + 1 * (y 0).val = (y 0).val; rw [e0]; omega
    | ⟨1, _⟩ => show win0_7.index t (1 : Fin 2) * 16 + 1 * (y 1).val = (y 1).val; rw [e1]; omega
  rw [h]

theorem iblk0_8_eq (c : Dev nD) (t : Fin cfg0.N) : (iblk0 V c 8 t : S1x16.Idx → EReal) = (V c main_v18 : S1x16.Idx → EReal) := by
  obtain ⟨e0, e1⟩ := index0_8 t
  funext y
  show (V c main_v18 : S1x16.Idx → EReal) (((cfg0.win 8).blk t).view.emb y) = _
  have h : (((cfg0.win 8).blk t).view.emb y : S1x16.Idx) = y := by
    funext a; apply Fin.ext
    match a with
    | ⟨0, _⟩ => show win0_8.index t (0 : Fin 2) * 1 + 1 * (y 0).val = (y 0).val; rw [e0]; omega
    | ⟨1, _⟩ => show win0_8.index t (1 : Fin 2) * 16 + 1 * (y 1).val = (y 1).val; rw [e1]; omega
  rw [h]

theorem iblk0_9_eq (c : Dev nD) (t : Fin cfg0.N) : (iblk0 V c 9 t : S1x16.Idx → EReal) = (V c main_v19 : S1x16.Idx → EReal) := by
  obtain ⟨e0, e1⟩ := index0_9 t
  funext y
  show (V c main_v19 : S1x16.Idx → EReal) (((cfg0.win 9).blk t).view.emb y) = _
  have h : (((cfg0.win 9).blk t).view.emb y : S1x16.Idx) = y := by
    funext a; apply Fin.ext
    match a with
    | ⟨0, _⟩ => show win0_9.index t (0 : Fin 2) * 1 + 1 * (y 0).val = (y 0).val; rw [e0]; omega
    | ⟨1, _⟩ => show win0_9.index t (1 : Fin 2) * 16 + 1 * (y 1).val = (y 1).val; rw [e1]; omega
  rw [h]

/-! ## The write-backs and the array -/

/-- The layer on every node, of the arrays the first kernel finds. -/
abbrev H1 (c : Dev nD) : S100000x16.Idx → EReal :=
  layerArr (V c main_arg0 : S100000x64.Idx → EReal) (V c main_v13 : S100000x64.Idx → EReal)
    (mat (V c main_arg2 : S64x16.Idx → EReal)) (row0 (V c main_v14 : S1x16.Idx → EReal))
    (mat (V c main_arg4 : S16x16.Idx → EReal)) (row0 (V c main_v15 : S1x16.Idx → EReal))
    (row0 (V c main_v16 : S1x16.Idx → EReal)) (row0 (V c main_v17 : S1x16.Idx → EReal))
    (row0 (V c main_v18 : S1x16.Idx → EReal)) (row0 (V c main_v19 : S1x16.Idx → EReal))

/-- What point `t` writes back is block `t` of the layer on every node. -/
theorem flushed0_eq (c : Dev nD) (t : Fin cfg0.N) :
    (dat0 V c).flushed 10 t = ((cfg0.win 10).blk t).view.read (Elt Ideal) (H1 V c) := by
  show (cfg0.win 10).cut (grid0.coords t) ((dat0 V c).after 10 t) = _
  rw [after0_10]
  unfold out0_10
  rw [View.canon_unit_zero hz]
  simp only [View.ld_unit_zero (S := S5000x64) hz, View.ld_unit_zero (S := S64x16) hz, View.ld_unit_zero (S := S1x16) hz,
    View.ld_unit_zero (S := S16x16) hz]
  obtain ⟨e0, e1⟩ := index0_10 t
  funext j
  obtain ⟨p, q, rfl⟩ : ∃ (p : Fin 5000) (q : Fin 16), j = ix2 p q := ⟨j 0, j 1, eq_ix2 j⟩
  have h : (((cfg0.win 10).blk t).view.emb (ix2 p q) : S100000x16.Idx) = ix2 (rowAt0 t p) q := by
    funext a; apply Fin.ext
    match a with
    | ⟨0, _⟩ => show win0_10.index t (0 : Fin 2) * 5000 + 1 * p.val = t.val * 5000 + p.val; rw [e0]; omega
    | ⟨1, _⟩ => show win0_10.index t (1 : Fin 2) * 16 + 1 * q.val = q.val; rw [e1]; omega
  show k0_pay1 (k0_pay2 (iblk0 V c 6 t)) (k0_pay3 (iblk0 V c 7 t)) (k0_pay4 (iblk0 V c 9 t))
      (k0_pay5 (iblk0 V c 0 t) (iblk0 V c 1 t) (iblk0 V c 2 t) (iblk0 V c 3 t) (iblk0 V c 4 t) (iblk0 V c 5 t) (iblk0 V c 8 t))
      (Scalar.ofBits .f32 0x3727C5AC#32) (ix2 p q)
    = H1 V c (((cfg0.win 10).blk t).view.emb (ix2 p q))
  rw [h, Body.stage1_apply]
  unfold H1
  rw [layerArr_apply]
  congr 1
  · funext k; exact iblk0_0_apply V c t p k
  · funext k; exact iblk0_1_apply V c t p k
  · funext k j; exact congrFun (iblk0_2_eq V c t) (ix2 k j)
  · funext j; exact congrFun (iblk0_3_eq V c t) (ix2 0 j)
  · funext k j; exact congrFun (iblk0_4_eq V c t) (ix2 k j)
  · funext j; exact congrFun (iblk0_5_eq V c t) (ix2 0 j)
  · funext j; exact congrFun (iblk0_6_eq V c t) (ix2 0 j)
  · funext j; exact congrFun (iblk0_7_eq V c t) (ix2 0 j)
  · funext j; exact congrFun (iblk0_8_eq V c t) (ix2 0 j)
  · funext j; exact congrFun (iblk0_9_eq V c t) (ix2 0 j)

/-- An index of the result array is in point `t`'s block iff its row is among the point's 5000 rows. -/
theorem mem_blk0 (t : Fin cfg0.N) (i : S100000x16.Idx) :
    i ∈ ((cfg0.win 10).blk t).view.set ↔ ∀ a : Fin 2, win0_10.index t a * S5000x16.size a ≤ (i a).val ∧ (i a).val < win0_10.index t a * S5000x16.size a + S5000x16.size a := by
  show i ∈ ((View.whole main_v20).slice (win0_10.rect t)).set ↔ _
  rw [View.set_slice_whole, Rect.mem_set_unit]
  exact Iff.rfl

/-- Every index of the result array is in the block of the point its row falls in. -/
theorem cover0 (i : S100000x16.Idx) : ∃ t : Fin cfg0.N, (cfg0.win 10).flush t = true ∧ i ∈ ((cfg0.win 10).blk t).view.set := by
  have hi0 : (i 0).val < 100000 := (i 0).isLt
  have hi1 : (i 1).val < 16 := (i 1).isLt
  have hN : cfg0.N = 20 := N_0
  let t : Fin cfg0.N := ⟨(i 0).val / 5000, by omega⟩
  obtain ⟨e0, e1⟩ := index0_10 t
  have ht : t.val = (i 0).val / 5000 := rfl
  refine ⟨t, flush0_10 t, ?_⟩
  rw [mem_blk0]
  intro a
  match a with
  | ⟨0, _⟩ => show win0_10.index t (0 : Fin 2) * 5000 ≤ (i 0).val ∧ (i 0).val < win0_10.index t (0 : Fin 2) * 5000 + 5000; rw [e0, ht]; omega
  | ⟨1, _⟩ => show win0_10.index t (1 : Fin 2) * 16 ≤ (i 1).val ∧ (i 1).val < win0_10.index t (1 : Fin 2) * 16 + 16; rw [e1]; omega

/-- The first kernel's result array after its write-backs is the layer on every node, of the arrays it finds. -/
theorem final0 (c : Dev nD) : (dat0 V c).arrAt 10 cfg0.N = H1 V c :=
  (dat0 V c).arrAt_eq_of_cover 10 (H1 V c) (fun t _ => flushed0_eq V c t) cover0

end Cert.KernelIdeal.Blocks

end
-- ==== Proof.KernelBody1.lean ====
/-
  The second kernel's body at one entry.

  At a grid point the body holds a block of 5000 node rows of the first layer's output and of its neighbour sums, and
  the whole parameter arrays.  Entry (p, c) of what it stores is the second graph-isomorphism layer of row p, then the
  classifier's ten logits of that row, then their log-softmax at class c: the logit minus the row's largest logit,
  minus the logarithm of the sum over the row of the exponentials of the shifted logits.  The row maximum and the row
  sum are reductions along the block's last axis kept as a column and broadcast back along the row.
-/
import proofs.«145324_j15719580303915_1_alg».proof.Proof.Gen.KernelIdeal.Skeleton
import proofs.«145324_j15719580303915_1_alg».proof.Proof.Spec
import proofs.«145324_j15719580303915_1_alg».proof.Proof.LibEntryReads

noncomputable section

open scoped BigOperators

namespace Cert.KernelIdeal.Body

open Cert.KernelIdeal Cert.KernelIdeal.Gen Idealize.ShloMosaic Idealize.ShloMosaic.ValueIdx Cert.GinNet Cert.Lib

/-- A running maximum from −∞ along the last axis of a matrix, read at row p. -/
theorem rowMax_f32 {a n : ℕ} (src : FVec Ideal ⟨2, ![a, n]⟩ .f32) (h : (⟨2, ![a, n]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p) = rowMax (fun k => src (ix2 p k)) :=
  Cert.Lib.rowMax_apply src _ h hφ hacc p

/-- A sum from zero along the last axis of a matrix, read at row p. -/
theorem rowSum_f32 {a n : ℕ} (src : FVec Ideal ⟨2, ![a, n]⟩ .f32) (h : (⟨2, ![a, n]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin n, src (ix2 p k) :=
  Cert.Lib.rowSum_apply src _ h hφ hacc p

/-- Entry (p, c) of the second kernel's stored block is the second layer and the classifier head applied to row p of its
    two row blocks. -/
theorem stage2_apply (x0 x1 : Vec Ideal S5000x16 .f32) (x2 : Vec Ideal S16x16 .f32) (x3 : Vec Ideal S1x16 .f32)
    (x4 : Vec Ideal S16x16 .f32) (x5 x6 x7 x8 x9 : Vec Ideal S1x16 .f32) (x10 : Vec Ideal S16x10 .f32)
    (x11 : Vec Ideal S1x10 .f32) (p : Fin 5000) (c : Fin 10) :
    k1_pay1 (k1_pay2 x6) (k1_pay3 x7) (k1_pay4 x9) (k1_pay5 x0 x1 x2 x3 x4 x5 x8) x10 x11 (ix2 p c)
      = top (fun k => x0 (ix2 p k)) (fun k => x1 (ix2 p k)) (fun k j => x2 (ix2 k j)) (fun j => x3 (ix2 0 j))
          (fun k j => x4 (ix2 k j)) (fun j => x5 (ix2 0 j)) (fun j => x6 (ix2 0 j)) (fun j => x7 (ix2 0 j))
          (fun j => x8 (ix2 0 j)) (fun j => x9 (ix2 0 j)) (fun k j => x10 (ix2 k j)) (fun j => x11 (ix2 0 j)) c := by
  unfold k1_pay1 k1_pay2 k1_pay3 k1_pay4 k1_pay5
  dsimp only
  simp only [shapeCast_self, addf_apply, subf_apply, mulf_apply, maximumf_apply, truncf_apply, broadcast_apply, rsqrt_apply,
    exp_apply, log_apply, broadcastTo_1b_ab_apply, Cert.Lib.broadcastTo_a1_ab_apply, Cert.Lib.shapeCast_a_a1_apply,
    matmul_plain_apply dot_S5000x16_S16x16_S5000x16_1_0_0_1_n_n Facts₀.dot_S5000x16_S16x16_S5000x16_1_0_0_1_n_n_wf rfl,
    matmul_plain_apply dot_S5000x16_S16x10_S5000x10_1_0_0_1_n_n Facts₀.dot_S5000x16_S16x10_S5000x10_1_0_0_1_n_n_wf rfl]
  rw [rowSum_f32]
  simp only [shapeCast_self, addf_apply, subf_apply, mulf_apply, maximumf_apply, truncf_apply, broadcast_apply, rsqrt_apply,
    exp_apply, log_apply, broadcastTo_1b_ab_apply, Cert.Lib.broadcastTo_a1_ab_apply, Cert.Lib.shapeCast_a_a1_apply,
    matmul_plain_apply dot_S5000x16_S16x16_S5000x16_1_0_0_1_n_n Facts₀.dot_S5000x16_S16x16_S5000x16_1_0_0_1_n_n_wf rfl,
    matmul_plain_apply dot_S5000x16_S16x10_S5000x10_1_0_0_1_n_n Facts₀.dot_S5000x16_S16x10_S5000x10_1_0_0_1_n_n_wf rfl]
  rw [rowMax_f32]
  simp only [shapeCast_self, addf_apply, subf_apply, mulf_apply, maximumf_apply, truncf_apply, broadcast_apply, rsqrt_apply,
    exp_apply, log_apply, broadcastTo_1b_ab_apply, Cert.Lib.broadcastTo_a1_ab_apply, Cert.Lib.shapeCast_a_a1_apply,
    matmul_plain_apply dot_S5000x16_S16x16_S5000x16_1_0_0_1_n_n Facts₀.dot_S5000x16_S16x16_S5000x16_1_0_0_1_n_n_wf rfl,
    matmul_plain_apply dot_S5000x16_S16x10_S5000x10_1_0_0_1_n_n Facts₀.dot_S5000x16_S16x10_S5000x10_1_0_0_1_n_n_wf rfl]
  rfl

end Cert.KernelIdeal.Body

end
-- ==== Proof.KernelBlocks1.lean ====
/-
  The second kernel's result array as one function of the arrays the kernel finds.

  The grid has twenty points; point t stages rows 5000·t … 5000·t + 4999 of the first layer's table and of its
  neighbour-sum table, and the whole of every parameter array, and writes back the same rows of the result.  What it
  writes back is, entry by entry, the second layer and the classifier head of the staged rows; a staged row p of point
  t is row 5000·t + p of the table.  So each write-back is a block of ONE whole-table function, and since the twenty
  blocks cover the result array, the array ends holding that function.
-/
import proofs.«145324_j15719580303915_1_alg».proof.Proof.Gen.KernelIdeal.Frame
import proofs.«145324_j15719580303915_1_alg».proof.Proof.ArraySpec
import proofs.«145324_j15719580303915_1_alg».proof.Proof.KernelBody1
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.GinNet
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-! ## Where each window's block sits: the two tables and the result move with the grid point, a parameter stays put -/

theorem index1_0 : ∀ t : Fin cfg1.N, win1_0.index t (0 : Fin 2) = t.val ∧ win1_0.index t (1 : Fin 2) = 0 :=
  (by decide +kernel : ∀ t : Fin grid1.N, _)
theorem index1_1 : ∀ t : Fin cfg1.N, win1_1.index t (0 : Fin 2) = t.val ∧ win1_1.index t (1 : Fin 2) = 0 :=
  (by decide +kernel : ∀ t : Fin grid1.N, _)
theorem index1_12 : ∀ t : Fin cfg1.N, win1_12.index t (0 : Fin 2) = t.val ∧ win1_12.index t (1 : Fin 2) = 0 :=
  (by decide +kernel : ∀ t : Fin grid1.N, _)
theorem index1_2 : ∀ t : Fin cfg1.N, win1_2.index t (0 : Fin 2) = 0 ∧ win1_2.index t (1 : Fin 2) = 0 :=
  (by decide +kernel : ∀ t : Fin grid1.N, _)
theorem index1_3 : ∀ t : Fin cfg1.N, win1_3.index t (0 : Fin 2) = 0 ∧ win1_3.index t (1 : Fin 2) = 0 :=
  (by decide +kernel : ∀ t : Fin grid1.N, _)
theorem index1_4 : ∀ t : Fin cfg1.N, win1_4.index t (0 : Fin 2) = 0 ∧ win1_4.index t (1 : Fin 2) = 0 :=
  (by decide +kernel : ∀ t : Fin grid1.N, _)
theorem index1_5 : ∀ t : Fin cfg1.N, win1_5.index t (0 : Fin 2) = 0 ∧ win1_5.index t (1 : Fin 2) = 0 :=
  (by decide +kernel : ∀ t : Fin grid1.N, _)
theorem index1_6 : ∀ t : Fin cfg1.N, win1_6.index t (0 : Fin 2) = 0 ∧ win1_6.index t (1 : Fin 2) = 0 :=
  (by decide +kernel : ∀ t : Fin grid1.N, _)
theorem index1_7 : ∀ t : Fin cfg1.N, win1_7.index t (0 : Fin 2) = 0 ∧ win1_7.index t (1 : Fin 2) = 0 :=
  (by decide +kernel : ∀ t : Fin grid1.N, _)
theorem index1_8 : ∀ t : Fin cfg1.N, win1_8.index t (0 : Fin 2) = 0 ∧ win1_8.index t (1 : Fin 2) = 0 :=
  (by decide +kernel : ∀ t : Fin grid1.N, _)
theorem index1_9 : ∀ t : Fin cfg1.N, win1_9.index t (0 : Fin 2) = 0 ∧ win1_9.index t (1 : Fin 2) = 0 :=
  (by decide +kernel : ∀ t : Fin grid1.N, _)
theorem index1_10 : ∀ t : Fin cfg1.N, win1_10.index t (0 : Fin 2) = 0 ∧ win1_10.index t (1 : Fin 2) = 0 :=
  (by decide +kernel : ∀ t : Fin grid1.N, _)
theorem index1_11 : ∀ t : Fin cfg1.N, win1_11.index t (0 : Fin 2) = 0 ∧ win1_11.index t (1 : Fin 2) = 0 :=
  (by decide +kernel : ∀ t : Fin grid1.N, _)

/-- The table row that staged row `p` of grid point `t` is. -/
def rowAt1 (t : Fin cfg1.N) (p : Fin 5000) : Fin 100000 :=
  ⟨t.val * 5000 + p.val, by have := t.isLt; have h : cfg1.N = 20 := N_1; have := p.isLt; omega⟩

/-- Staged row `p` of the first layer's table at point `t` is table row `5000·t + p`. -/
theorem iblk1_0_apply (c : Dev nD) (t : Fin cfg1.N) (p : Fin 5000) (k : Fin 16) :
    (iblk1 V c 0 t : S5000x16.Idx → EReal) (ix2 p k) = (V c main_v20 : S100000x16.Idx → EReal) (ix2 (rowAt1 t p) k) := by
  obtain ⟨e0, e1⟩ := index1_0 t
  show (V c main_v20 : S100000x16.Idx → EReal) (((cfg1.win 0).blk t).view.emb (ix2 p k)) = _
  have h : (((cfg1.win 0).blk t).view.emb (ix2 p k) : S100000x16.Idx) = ix2 (rowAt1 t p) k := by
    funext a; apply Fin.ext
    match a with
    | ⟨0, _⟩ => show win1_0.index t (0 : Fin 2) * 5000 + 1 * p.val = t.val * 5000 + p.val; rw [e0]; omega
    | ⟨1, _⟩ => show win1_0.index t (1 : Fin 2) * 16 + 1 * k.val = k.val; rw [e1]; omega
  rw [h]

/-- Staged row `p` of its neighbour-sum table at point `t` is table row `5000·t + p`. -/
theorem iblk1_1_apply (c : Dev nD) (t : Fin cfg1.N) (p : Fin 5000) (k : Fin 16) :
    (iblk1 V c 1 t : S5000x16.Idx → EReal) (ix2 p k) = (V c main_v30 : S100000x16.Idx → EReal) (ix2 (rowAt1 t p) k) := by
  obtain ⟨e0, e1⟩ := index1_1 t
  show (V c main_v30 : S100000x16.Idx → EReal) (((cfg1.win 1).blk t).view.emb (ix2 p k)) = _
  have h : (((cfg1.win 1).blk t).view.emb (ix2 p k) : S100000x16.Idx) = ix2 (rowAt1 t p) k := by
    funext a; apply Fin.ext
    match a with
    | ⟨0, _⟩ => show win1_1.index t (0 : Fin 2) * 5000 + 1 * p.val = t.val * 5000 + p.val; rw [e0]; omega
    | ⟨1, _⟩ => show win1_1.index t (1 : Fin 2) * 16 + 1 * k.val = k.val; rw [e1]; omega
  rw [h]

/-! Each parameter window stages its whole array. -/

theorem iblk1_2_eq (c : Dev nD) (t : Fin cfg1.N) : (iblk1 V c 2 t : S16x16.Idx → EReal) = (V c main_arg10 : S16x16.Idx → EReal) := by
  obtain ⟨e0, e1⟩ := index1_2 t
  funext y
  show (V c main_arg10 : S16x16.Idx → EReal) (((cfg1.win 2).blk t).view.emb y) = _
  have h : (((cfg1.win 2).blk t).view.emb y : S16x16.Idx) = y := by
    funext a; apply Fin.ext
    match a with
    | ⟨0, _⟩ => show win1_2.index t (0 : Fin 2) * 16 + 1 * (y 0).val = (y 0).val; rw [e0]; omega
    | ⟨1, _⟩ => show win1_2.index t (1 : Fin 2) * 16 + 1 * (y 1).val = (y 1).val; rw [e1]; omega
  rw [h]

theorem iblk1_3_eq (c : Dev nD) (t : Fin cfg1.N) : (iblk1 V c 3 t : S1x16.Idx → EReal) = (V c main_v31 : S1x16.Idx → EReal) := by
  obtain ⟨e0, e1⟩ := index1_3 t
  funext y
  show (V c main_v31 : S1x16.Idx → EReal) (((cfg1.win 3).blk t).view.emb y) = _
  have h : (((cfg1.win 3).blk t).view.emb y : S1x16.Idx) = y := by
    funext a; apply Fin.ext
    match a with
    | ⟨0, _⟩ => show win1_3.index t (0 : Fin 2) * 1 + 1 * (y 0).val = (y 0).val; rw [e0]; omega
    | ⟨1, _⟩ => show win1_3.index t (1 : Fin 2) * 16 + 1 * (y 1).val = (y 1).val; rw [e1]; omega
  rw [h]

theorem iblk1_4_eq (c : Dev nD) (t : Fin cfg1.N) : (iblk1 V c 4 t : S16x16.Idx → EReal) = (V c main_arg12 : S16x16.Idx → EReal) := by
  obtain ⟨e0, e1⟩ := index1_4 t
  funext y
  show (V c main_arg12 : S16x16.Idx → EReal) (((cfg1.win 4).blk t).view.emb y) = _
  have h : (((cfg1.win 4).blk t).view.emb y : S16x16.Idx) = y := by
    funext a; apply Fin.ext
    match a with
    | ⟨0, _⟩ => show win1_4.index t (0 : Fin 2) * 16 + 1 * (y 0).val = (y 0).val; rw [e0]; omega
    | ⟨1, _⟩ => show win1_4.index t (1 : Fin 2) * 16 + 1 * (y 1).val = (y 1).val; rw [e1]; omega
  rw [h]

theorem iblk1_5_eq (c : Dev nD) (t : Fin cfg1.N) : (iblk1 V c 5 t : S1x16.Idx → EReal) = (V c main_v32 : S1x16.Idx → EReal) := by
  obtain ⟨e0, e1⟩ := index1_5 t
  funext y
  show (V c main_v32 : S1x16.Idx → EReal) (((cfg1.win 5).blk t).view.emb y) = _
  have h : (((cfg1.win 5).blk t).view.emb y : S1x16.Idx) = y := by
    funext a; apply Fin.ext
    match a with
    | ⟨0, _⟩ => show win1_5.index t (0 : Fin 2) * 1 + 1 * (y 0).val = (y 0).val; rw [e0]; omega
    | ⟨1, _⟩ => show win1_5.index t (1 : Fin 2) * 16 + 1 * (y 1).val = (y 1).val; rw [e1]; omega
  rw [h]

theorem iblk1_6_eq (c : Dev nD) (t : Fin cfg1.N) : (iblk1 V c 6 t : S1x16.Idx → EReal) = (V c main_v33 : S1x16.Idx → EReal) := by
  obtain ⟨e0, e1⟩ := index1_6 t
  funext y
  show (V c main_v33 : S1x16.Idx → EReal) (((cfg1.win 6).blk t).view.emb y) = _
  have h : (((cfg1.win 6).blk t).view.emb y : S1x16.Idx) = y := by
    funext a; apply Fin.ext
    match a with
    | ⟨0, _⟩ => show win1_6.index t (0 : Fin 2) * 1 + 1 * (y 0).val = (y 0).val; rw [e0]; omega
    | ⟨1, _⟩ => show win1_6.index t (1 : Fin 2) * 16 + 1 * (y 1).val = (y 1).val; rw [e1]; omega
  rw [h]

theorem iblk1_7_eq (c : Dev nD) (t : Fin cfg1.N) : (iblk1 V c 7 t : S1x16.Idx → EReal) = (V c main_v34 : S1x16.Idx → EReal) := by
  obtain ⟨e0, e1⟩ := index1_7 t
  funext y
  show (V c main_v34 : S1x16.Idx → EReal) (((cfg1.win 7).blk t).view.emb y) = _
  have h : (((cfg1.win 7).blk t).view.emb y : S1x16.Idx) = y := by
    funext a; apply Fin.ext
    match a with
    | ⟨0, _⟩ => show win1_7.index t (0 : Fin 2) * 1 + 1 * (y 0).val = (y 0).val; rw [e0]; omega
    | ⟨1, _⟩ => show win1_7.index t (1 : Fin 2) * 16 + 1 * (y 1).val = (y 1).val; rw [e1]; omega
  rw [h]

theorem iblk1_8_eq (c : Dev nD) (t : Fin cfg1.N) : (iblk1 V c 8 t : S1x16.Idx → EReal) = (V c main_v35 : S1x16.Idx → EReal) := by
  obtain ⟨e0, e1⟩ := index1_8 t
  funext y
  show (V c main_v35 : S1x16.Idx → EReal) (((cfg1.win 8).blk t).view.emb y) = _
  have h : (((cfg1.win 8).blk t).view.emb y : S1x16.Idx) = y := by
    funext a; apply Fin.ext
    match a with
    | ⟨0, _⟩ => show win1_8.index t (0 : Fin 2) * 1 + 1 * (y 0).val = (y 0).val; rw [e0]; omega
    | ⟨1, _⟩ => show win1_8.index t (1 : Fin 2) * 16 + 1 * (y 1).val = (y 1).val; rw [e1]; omega
  rw [h]

theorem iblk1_9_eq (c : Dev nD) (t : Fin cfg1.N) : (iblk1 V c 9 t : S1x16.Idx → EReal) = (V c main_v36 : S1x16.Idx → EReal) := by
  obtain ⟨e0, e1⟩ := index1_9 t
  funext y
  show (V c main_v36 : S1x16.Idx → EReal) (((cfg1.win 9).blk t).view.emb y) = _
  have h : (((cfg1.win 9).blk t).view.emb y : S1x16.Idx) = y := by
    funext a; apply Fin.ext
    match a with
    | ⟨0, _⟩ => show win1_9.index t (0 : Fin 2) * 1 + 1 * (y 0).val = (y 0).val; rw [e0]; omega
    | ⟨1, _⟩ => show win1_9.index t (1 : Fin 2) * 16 + 1 * (y 1).val = (y 1).val; rw [e1]; omega
  rw [h]

theorem iblk1_10_eq (c : Dev nD) (t : Fin cfg1.N) : (iblk1 V c 10 t : S16x10.Idx → EReal) = (V c main_arg18 : S16x10.Idx → EReal) := by
  obtain ⟨e0, e1⟩ := index1_10 t
  funext y
  show (V c main_arg18 : S16x10.Idx → EReal) (((cfg1.win 10).blk t).view.emb y) = _
  have h : (((cfg1.win 10).blk t).view.emb y : S16x10.Idx) = y := by
    funext a; apply Fin.ext
    match a with
    | ⟨0, _⟩ => show win1_10.index t (0 : Fin 2) * 16 + 1 * (y 0).val = (y 0).val; rw [e0]; omega
    | ⟨1, _⟩ => show win1_10.index t (1 : Fin 2) * 10 + 1 * (y 1).val = (y 1).val; rw [e1]; omega
  rw [h]

theorem iblk1_11_eq (c : Dev nD) (t : Fin cfg1.N) : (iblk1 V c 11 t : S1x10.Idx → EReal) = (V c main_v37 : S1x10.Idx → EReal) := by
  obtain ⟨e0, e1⟩ := index1_11 t
  funext y
  show (V c main_v37 : S1x10.Idx → EReal) (((cfg1.win 11).blk t).view.emb y) = _
  have h : (((cfg1.win 11).blk t).view.emb y : S1x10.Idx) = y := by
    funext a; apply Fin.ext
    match a with
    | ⟨0, _⟩ => show win1_11.index t (0 : Fin 2) * 1 + 1 * (y 0).val = (y 0).val; rw [e0]; omega
    | ⟨1, _⟩ => show win1_11.index t (1 : Fin 2) * 10 + 1 * (y 1).val = (y 1).val; rw [e1]; omega
  rw [h]

/-! ## The write-backs and the array -/

/-- The second layer and the classifier head on every node, of the arrays the second kernel finds. -/
abbrev OUT (c : Dev nD) : S100000x10.Idx → EReal :=
  topArr (V c main_v20 : S100000x16.Idx → EReal) (V c main_v30 : S100000x16.Idx → EReal)
    (mat (V c main_arg10 : S16x16.Idx → EReal)) (row0 (V c main_v31 : S1x16.Idx → EReal))
    (mat (V c main_arg12 : S16x16.Idx → EReal)) (row0 (V c main_v32 : S1x16.Idx → EReal))
    (row0 (V c main_v33 : S1x16.Idx → EReal)) (row0 (V c main_v34 : S1x16.Idx → EReal))
    (row0 (V c main_v35 : S1x16.Idx → EReal)) (row0 (V c main_v36 : S1x16.Idx → EReal))
    (mat (V c main_arg18 : S16x10.Idx → EReal)) (row0 (V c main_v37 : S1x10.Idx → EReal))

/-- What point `t` writes back is block `t` of that function. -/
theorem flushed1_eq (c : Dev nD) (t : Fin cfg1.N) :
    (dat1 V c).flushed 12 t = ((cfg1.win 12).blk t).view.read (Elt Ideal) (OUT V c) := by
  show (cfg1.win 12).cut (grid1.coords t) ((dat1 V c).after 12 t) = _
  rw [after1_12]
  unfold out1_12
  rw [View.canon_unit_zero hz1]
  simp only [View.ld_unit_zero (S := S5000x16) hz1, View.ld_unit_zero (S := S16x16) hz1, View.ld_unit_zero (S := S1x16) hz1,
    View.ld_unit_zero (S := S16x10) hz1, View.ld_unit_zero (S := S1x10) hz1]
  obtain ⟨e0, e1⟩ := index1_12 t
  funext j
  obtain ⟨p, q, rfl⟩ : ∃ (p : Fin 5000) (q : Fin 10), j = ix2 p q := ⟨j 0, j 1, eq_ix2 j⟩
  have h : (((cfg1.win 12).blk t).view.emb (ix2 p q) : S100000x10.Idx) = ix2 (rowAt1 t p) q := by
    funext a; apply Fin.ext
    match a with
    | ⟨0, _⟩ => show win1_12.index t (0 : Fin 2) * 5000 + 1 * p.val = t.val * 5000 + p.val; rw [e0]; omega
    | ⟨1, _⟩ => show win1_12.index t (1 : Fin 2) * 10 + 1 * q.val = q.val; rw [e1]; omega
  show k1_pay1 (k1_pay2 (iblk1 V c 6 t)) (k1_pay3 (iblk1 V c 7 t)) (k1_pay4 (iblk1 V c 9 t))
      (k1_pay5 (iblk1 V c 0 t) (iblk1 V c 1 t) (iblk1 V c 2 t) (iblk1 V c 3 t) (iblk1 V c 4 t) (iblk1 V c 5 t) (iblk1 V c 8 t))
      (iblk1 V c 10 t) (iblk1 V c 11 t) (ix2 p q)
    = OUT V c (((cfg1.win 12).blk t).view.emb (ix2 p q))
  rw [h, Body.stage2_apply]
  unfold OUT
  rw [topArr_apply]
  congr 1
  · funext k; exact iblk1_0_apply V c t p k
  · funext k; exact iblk1_1_apply V c t p k
  · funext k j; exact congrFun (iblk1_2_eq V c t) (ix2 k j)
  · funext j; exact congrFun (iblk1_3_eq V c t) (ix2 0 j)
  · funext k j; exact congrFun (iblk1_4_eq V c t) (ix2 k j)
  · funext j; exact congrFun (iblk1_5_eq V c t) (ix2 0 j)
  · funext j; exact congrFun (iblk1_6_eq V c t) (ix2 0 j)
  · funext j; exact congrFun (iblk1_7_eq V c t) (ix2 0 j)
  · funext j; exact congrFun (iblk1_8_eq V c t) (ix2 0 j)
  · funext j; exact congrFun (iblk1_9_eq V c t) (ix2 0 j)
  · funext k j; exact congrFun (iblk1_10_eq V c t) (ix2 k j)
  · funext j; exact congrFun (iblk1_11_eq V c t) (ix2 0 j)

/-- An index of the result array is in point `t`'s block iff its row is among the point's 5000 rows. -/
theorem mem_blk1 (t : Fin cfg1.N) (i : S100000x10.Idx) :
    i ∈ ((cfg1.win 12).blk t).view.set ↔ ∀ a : Fin 2, win1_12.index t a * S5000x10.size a ≤ (i a).val ∧ (i a).val < win1_12.index t a * S5000x10.size a + S5000x10.size a := by
  show i ∈ ((View.whole main_v38).slice (win1_12.rect t)).set ↔ _
  rw [View.set_slice_whole, Rect.mem_set_unit]
  exact Iff.rfl

/-- Every index of the result array is in the block of the point its row falls in. -/
theorem cover1 (i : S100000x10.Idx) : ∃ t : Fin cfg1.N, (cfg1.win 12).flush t = true ∧ i ∈ ((cfg1.win 12).blk t).view.set := by
  have hi0 : (i 0).val < 100000 := (i 0).isLt
  have hi1 : (i 1).val < 10 := (i 1).isLt
  have hN : cfg1.N = 20 := N_1
  let t : Fin cfg1.N := ⟨(i 0).val / 5000, by omega⟩
  obtain ⟨e0, e1⟩ := index1_12 t
  have ht : t.val = (i 0).val / 5000 := rfl
  refine ⟨t, flush1_12 t, ?_⟩
  rw [mem_blk1]
  intro a
  match a with
  | ⟨0, _⟩ => show win1_12.index t (0 : Fin 2) * 5000 ≤ (i 0).val ∧ (i 0).val < win1_12.index t (0 : Fin 2) * 5000 + 5000; rw [e0, ht]; omega
  | ⟨1, _⟩ => show win1_12.index t (1 : Fin 2) * 10 ≤ (i 1).val ∧ (i 1).val < win1_12.index t (1 : Fin 2) * 10 + 10; rw [e1]; omega

/-- The second kernel's result array after its write-backs is that function of the arrays it finds. -/
theorem final1 (c : Dev nD) : (dat1 V c).arrAt 12 cfg1.N = OUT V c :=
  (dat1 V c).arrAt_eq_of_cover 12 (OUT V c) (fun t _ => flushed1_eq V c t) cover1

end Cert.KernelIdeal.Blocks

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«145324_j15719580303915_1_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.RefValue.lean ====
/-
  The reference read entry by entry.

  The reference applies the network to the whole node tables at once.  Entry (r, j) of its first layer's table is the
  layer of row r of the feature table and row r of the neighbour sums; entry (r, c) of its result is the second layer
  and the classifier head of row r of the first layer's table and of that table's neighbour sums.  The neighbour sums
  themselves (a gather along the edges' sources and a scatter-add onto their targets) are never opened: they stay one
  function of a table and the edge list.
-/
import proofs.«145324_j15719580303915_1_alg».proof.Proof.RefRead
import proofs.«145324_j15719580303915_1_alg».proof.Proof.ArraySpec
import proofs.«145324_j15719580303915_1_alg».proof.Proof.LibEntryReads
import proofs.«145324_j15719580303915_1_alg».proof.Proof.LibHostReads

noncomputable section

open scoped BigOperators

namespace Cert.ReferenceIdeal.RefValue

open Cert.ReferenceIdeal Cert.ReferenceIdeal.Gen Cert.ReferenceIdeal.ReadP Idealize.ShloMosaic Idealize.ShloMosaic.ValueIdx Cert.GinNet Cert.Lib

variable (x0 : (⟨S100000x64, .f32⟩ : BufTy).Contents (Elt Ideal)) (x1 : (⟨S2x1600000, .i32⟩ : BufTy).Contents (Elt Ideal))
  (x2 : (⟨S64x16, .f32⟩ : BufTy).Contents (Elt Ideal)) (x3 : (⟨S16, .f32⟩ : BufTy).Contents (Elt Ideal))
  (x4 : (⟨S16x16, .f32⟩ : BufTy).Contents (Elt Ideal)) (x5 x6 x7 x8 x9 : (⟨S16, .f32⟩ : BufTy).Contents (Elt Ideal))
  (x10 : (⟨S16x16, .f32⟩ : BufTy).Contents (Elt Ideal)) (x11 : (⟨S16, .f32⟩ : BufTy).Contents (Elt Ideal))
  (x12 : (⟨S16x16, .f32⟩ : BufTy).Contents (Elt Ideal)) (x13 x14 x15 x16 x17 : (⟨S16, .f32⟩ : BufTy).Contents (Elt Ideal))
  (x18 : (⟨S16x10, .f32⟩ : BufTy).Contents (Elt Ideal)) (x19 : (⟨S10, .f32⟩ : BufTy).Contents (Elt Ideal))

/-- The reference's first neighbour sums, as a function of the feature table and the edge list. -/
abbrev agg1 : S100000x64.Idx → EReal := val_main_v13 (F := Ideal) x0 x1

/-- The reference's first layer's table. -/
abbrev h1 : S100000x16.Idx → EReal := val_main_v39 (F := Ideal) x0 x1 x2 x3 x4 x5 x6 x7 x8 x9

/-- The reference's second neighbour sums. -/
abbrev agg2 : S100000x16.Idx → EReal := val_main_v53 (F := Ideal) x0 x1 x2 x3 x4 x5 x6 x7 x8 x9

theorem fold_eq_rowMax {n : ℕ} (l : Fin n → EReal) :
    (Finset.univ : Finset (Fin n)).fold max (Ideal.ofBits .f32 0xFF800000#32) l = rowMax l := rfl

/-- Entry (r, q) of the reference's first layer's table. -/
theorem layer1_apply (r : Fin 100000) (q : Fin 16) :
    h1 x0 x1 x2 x3 x4 x5 x6 x7 x8 x9 (ix2 r q)
      = layer (row x0 r) (row (agg1 x0 x1) r) (mat x2) (vec x3) (mat x4) (vec x5) (vec x6) (vec x7) (vec x8) (vec x9) q := by
  unfold h1 val_main_v39 val_main_v38 val_main_v37 val_main_v36 val_main_v35 val_main_v34 val_main_v33 val_main_v32 val_main_v31
    val_main_v30 val_main_cst_3 val_main_v29 val_main_v28 val_main_v27 val_main_v26 val_main_v25 val_main_cst_2 val_main_v24
    val_main_v23 val_main_v22 val_main_v21 val_main_v20 val_main_v19 val_main_cst_1 val_main_v18 val_main_v17 val_main_v16
    val_main_v15 val_main_v14
  repeat rw [bcast_vec_rows_eq]
  repeat rw [bcast_scalar_eq]
  simp only [addf_apply, subf_apply, mulf_apply, maximumf_apply, host_rsqrt_apply,
    dotGeneral_plain_apply dot_S100000x64_S64x16_S100000x16_1_0_0_1_n_n Facts₀.dot_S100000x64_S64x16_S100000x16_1_0_0_1_n_n_wf rfl,
    dotGeneral_plain_apply dot_S100000x16_S16x16_S100000x16_1_0_0_1_n_n Facts₀.dot_S100000x16_S16x16_S100000x16_1_0_0_1_n_n_wf rfl]
  rfl

/-- The reference's first layer's table is the layer on every node. -/
theorem h1_eq : h1 x0 x1 x2 x3 x4 x5 x6 x7 x8 x9
    = layerArr x0 (agg1 x0 x1) (mat x2) (vec x3) (mat x4) (vec x5) (vec x6) (vec x7) (vec x8) (vec x9) := by
  funext i
  obtain ⟨r, q, rfl⟩ : ∃ (r : Fin 100000) (q : Fin 16), i = ix2 r q := ⟨i 0, i 1, eq_ix2 i⟩
  exact layer1_apply x0 x1 x2 x3 x4 x5 x6 x7 x8 x9 r q

/-- Entry (r, c) of the reference's result. -/
theorem top_apply (r : Fin 100000) (c : Fin 10) :
    val_main_v84 (F := Ideal) x0 x1 x2 x3 x4 x5 x6 x7 x8 x9 x10 x11 x12 x13 x14 x15 x16 x17 x18 x19 (ix2 r c)
      = top (row (h1 x0 x1 x2 x3 x4 x5 x6 x7 x8 x9) r) (row (agg2 x0 x1 x2 x3 x4 x5 x6 x7 x8 x9) r) (mat x10) (vec x11) (mat x12) (vec x13)
          (vec x14) (vec x15) (vec x16) (vec x17) (mat x18) (vec x19) c := by
  unfold val_main_v84 val_main_call0_v10 val_main_call0_v9 val_main_call0_v8 val_main_call0_v7 val_main_call0_cst_1
    val_main_call0_v6 val_main_call0_v5 val_main_call0_v4 val_main_call0_v3 val_main_call0_v2 val_main_call0_v1
    val_main_call0_cst_0 val_main_call0_v0 val_main_call0_cst val_main_v83 val_main_v82 val_main_v81 val_main_v80 val_main_v79
    val_main_v78 val_main_v77 val_main_v76 val_main_v75 val_main_v74 val_main_v73 val_main_v72 val_main_v71 val_main_v70
    val_main_cst_9 val_main_v69 val_main_v68 val_main_v67 val_main_v66 val_main_v65 val_main_cst_8 val_main_v64 val_main_v63
    val_main_v62 val_main_v61 val_main_v60 val_main_v59 val_main_cst_7 val_main_v58 val_main_v57 val_main_v56 val_main_v55
    val_main_v54
  rw [host_rowSum_eq (show (⟨2, ![100000, 10]⟩ : Shape).Reduces [1] ⟨1, ![100000]⟩ from by decide)]
  rw [host_rowMax_eq (show (⟨2, ![100000, 10]⟩ : Shape).Reduces [1] ⟨1, ![100000]⟩ from by decide)]
  repeat rw [bcast_vec_rows_eq]
  repeat rw [bcast_scalar_eq]
  repeat rw [bcast_col_rows_eq]
  repeat rw [bcast_col_eq]
  simp only [addf_apply, subf_apply, mulf_apply, maximumf_apply, host_rsqrt_apply, host_exp_apply, host_log_apply,
    dotGeneral_plain_apply dot_S100000x16_S16x16_S100000x16_1_0_0_1_n_n Facts₀.dot_S100000x16_S16x16_S100000x16_1_0_0_1_n_n_wf rfl,
    dotGeneral_plain_apply dot_S100000x16_S16x10_S100000x10_1_0_0_1_n_n Facts₀.dot_S100000x16_S16x10_S100000x10_1_0_0_1_n_n_wf rfl,
    fold_eq_rowMax, max_rowMax]
  rfl

/-- The reference's result is the second layer and the classifier head on every node. -/
theorem out_eq : val_main_v84 (F := Ideal) x0 x1 x2 x3 x4 x5 x6 x7 x8 x9 x10 x11 x12 x13 x14 x15 x16 x17 x18 x19
    = topArr (h1 x0 x1 x2 x3 x4 x5 x6 x7 x8 x9) (agg2 x0 x1 x2 x3 x4 x5 x6 x7 x8 x9) (mat x10) (vec x11) (mat x12) (vec x13)
        (vec x14) (vec x15) (vec x16) (vec x17) (mat x18) (vec x19) := by
  funext i
  obtain ⟨r, c, rfl⟩ : ∃ (r : Fin 100000) (c : Fin 10), i = ix2 r c := ⟨i 0, i 1, eq_ix2 i⟩
  exact top_apply x0 x1 x2 x3 x4 x5 x6 x7 x8 x9 x10 x11 x12 x13 x14 x15 x16 x17 x18 x19 r c

/-! ## The network as one function of the argument arrays -/

/-- The neighbour sums of a sixteen-channel table: a gather along the edges' sources, a scatter-add onto their targets. -/
def aggOf16 (h : (⟨S100000x16, .f32⟩ : BufTy).Contents (Elt Ideal)) (e : (⟨S2x1600000, .i32⟩ : BufTy).Contents (Elt Ideal)) :
    (⟨S100000x16, .f32⟩ : BufTy).Contents (Elt Ideal) :=
  Host.scatterAdd (F := Ideal) (φ := .f32) scatter_S100000x16_S1600000x1_S1600000x16_1_0_0_1 (val_main_v51 (F := Ideal)) (val_main_v52 (F := Ideal) e)
    (Host.gather gather_S100000x16_S1600000x1_S1600000x16_1_0_n_n_0_1_116 (h : FVec Ideal S100000x16 .f32) (val_main_v49 (F := Ideal) e))

theorem agg2_eq : agg2 x0 x1 x2 x3 x4 x5 x6 x7 x8 x9 = aggOf16 (h1 x0 x1 x2 x3 x4 x5 x6 x7 x8 x9) x1 := rfl

/-- The first layer's table as a function of the argument arrays. -/
def hidden : S100000x16.Idx → EReal :=
  layerArr x0 (agg1 x0 x1) (mat x2) (vec x3) (mat x4) (vec x5) (vec x6) (vec x7) (vec x8) (vec x9)

/-- The network: both layers, the neighbour sums between them, the classifier head. -/
def net : S100000x10.Idx → EReal :=
  topArr (hidden x0 x1 x2 x3 x4 x5 x6 x7 x8 x9) (aggOf16 (hidden x0 x1 x2 x3 x4 x5 x6 x7 x8 x9) x1) (mat x10) (vec x11) (mat x12) (vec x13)
    (vec x14) (vec x15) (vec x16) (vec x17) (mat x18) (vec x19)

/-- The reference computes the network. -/
theorem ref_eq : val_main_v84 (F := Ideal) x0 x1 x2 x3 x4 x5 x6 x7 x8 x9 x10 x11 x12 x13 x14 x15 x16 x17 x18 x19 = net x0 x1 x2 x3 x4 x5 x6 x7 x8 x9 x10 x11 x12 x13 x14 x15 x16 x17 x18 x19 := by
  rw [out_eq, agg2_eq, h1_eq]
  rfl

end Cert.ReferenceIdeal.RefValue

end
-- ==== Proof.KernelValue.lean ====
/-
  The idealized program's result array as the network of its argument arrays.

  Before the first kernel the host computes the neighbour sums of the feature table and reshapes six parameter
  vectors to one-row matrices; the first kernel's result array is then the first layer on every node.  Between the
  kernels the host computes the neighbour sums of that table (with the same source and target lists) and reshapes
  seven more parameter vectors; the second kernel's result array is then the second layer and the classifier head on
  every node.  Reading each buffer a kernel finds back through the host operations to the argument arrays turns the
  second kernel's result array into the network as one function of the arguments — the function the reference computes.
-/
import proofs.«145324_j15719580303915_1_alg».proof.Proof.Gen.KernelIdeal.Frame
import proofs.«145324_j15719580303915_1_alg».proof.Proof.KernelBlocks0
import proofs.«145324_j15719580303915_1_alg».proof.Proof.KernelBlocks1
import proofs.«145324_j15719580303915_1_alg».proof.Proof.RefValue
import Idealize.ShloMosaic.Lib.StableHlo.Run
import Idealize.ShloMosaic.Lib.ValueLayout

set_option maxRecDepth 16384

noncomputable section

namespace Cert.KernelIdeal.KV

open Cert.KernelIdeal Cert.KernelIdeal.Gen Idealize.ShloMosaic Idealize.ShloMosaic.TcCoe Idealize.SL.Sem
open Idealize.ShloMosaic.StableHlo Idealize.ShloMosaic.ValueIdx Cert.GinNet
open Cert.ReferenceIdeal.ReadP (val_main_v13 val_main_v41 val_main_v43)
open Cert.ReferenceIdeal.RefValue (aggOf16 net agg1)

variable (m : (ℓ : Loc nD τ sig) → Buf (Elt Ideal) ℓ) (ρ : Dev nD → PrngReg) (c : Dev nD)

/-- A vector reshaped to a one-row matrix, read as a row, is the vector. -/
theorem row0_reshape {B : ℕ} (v : (⟨1, ![B]⟩ : Shape).Idx → EReal) (h : (⟨1, ![B]⟩ : Shape).ShapeCasts ⟨2, ![1, B]⟩) :
    row0 (shapeCast ⟨2, ![1, B]⟩ v h) = vec v :=
  funext fun j => shapeCast_a_1a_apply v h 0 j

/-! ## What the first kernel finds: the host operations before it, read back to the arguments -/

theorem V1_arg0 : V1 m ρ c main_arg0 = (m ((c : Thread nD τ).loc main_arg0)) := by
  show StableHlo.after hostOps0 (W0 m ρ c) (Proc.devRef .tc main_arg0) = _
  after_results
  first | done | rfl
theorem V1_arg2 : V1 m ρ c main_arg2 = (m ((c : Thread nD τ).loc main_arg2)) := by
  show StableHlo.after hostOps0 (W0 m ρ c) (Proc.devRef .tc main_arg2) = _
  after_results
  first | done | rfl
theorem V1_arg4 : V1 m ρ c main_arg4 = (m ((c : Thread nD τ).loc main_arg4)) := by
  show StableHlo.after hostOps0 (W0 m ρ c) (Proc.devRef .tc main_arg4) = _
  after_results
  first | done | rfl

theorem V1_v13 : (V1 m ρ c main_v13 : S100000x64.Idx → EReal) = agg1 (m ((c : Thread nD τ).loc main_arg0)) (m ((c : Thread nD τ).loc main_arg1)) := by
  show StableHlo.after hostOps0 (W0 m ρ c) (Proc.devRef .tc main_v13) = _
  after_results
  first | done | rfl

theorem V1_v14 : (V1 m ρ c main_v14 : S1x16.Idx → EReal) = shapeCast S1x16 ((m ((c : Thread nD τ).loc main_arg3)) : S16.Idx → EReal) Facts₀.shapeCasts_S16_S1x16 := by
  show StableHlo.after hostOps0 (W0 m ρ c) (Proc.devRef .tc main_v14) = _
  after_results
  first | done | rfl

theorem V1_v15 : (V1 m ρ c main_v15 : S1x16.Idx → EReal) = shapeCast S1x16 ((m ((c : Thread nD τ).loc main_arg5)) : S16.Idx → EReal) Facts₀.shapeCasts_S16_S1x16 := by
  show StableHlo.after hostOps0 (W0 m ρ c) (Proc.devRef .tc main_v15) = _
  after_results
  first | done | rfl

theorem V1_v16 : (V1 m ρ c main_v16 : S1x16.Idx → EReal) = shapeCast S1x16 ((m ((c : Thread nD τ).loc main_arg6)) : S16.Idx → EReal) Facts₀.shapeCasts_S16_S1x16 := by
  show StableHlo.after hostOps0 (W0 m ρ c) (Proc.devRef .tc main_v16) = _
  after_results
  first | done | rfl

theorem V1_v17 : (V1 m ρ c main_v17 : S1x16.Idx → EReal) = shapeCast S1x16 ((m ((c : Thread nD τ).loc main_arg7)) : S16.Idx → EReal) Facts₀.shapeCasts_S16_S1x16 := by
  show StableHlo.after hostOps0 (W0 m ρ c) (Proc.devRef .tc main_v17) = _
  after_results
  first | done | rfl

theorem V1_v18 : (V1 m ρ c main_v18 : S1x16.Idx → EReal) = shapeCast S1x16 ((m ((c : Thread nD τ).loc main_arg8)) : S16.Idx → EReal) Facts₀.shapeCasts_S16_S1x16 := by
  show StableHlo.after hostOps0 (W0 m ρ c) (Proc.devRef .tc main_v18) = _
  after_results
  first | done | rfl

theorem V1_v19 : (V1 m ρ c main_v19 : S1x16.Idx → EReal) = shapeCast S1x16 ((m ((c : Thread nD τ).loc main_arg9)) : S16.Idx → EReal) Facts₀.shapeCasts_S16_S1x16 := by
  show StableHlo.after hostOps0 (W0 m ρ c) (Proc.devRef .tc main_v19) = _
  after_results
  first | done | rfl

/-- The first kernel's result array: the first layer on every node, of the argument arrays. -/
theorem hidden_eq : (dat0 (V1 m ρ) c).arrAt 10 cfg0.N = Cert.ReferenceIdeal.RefValue.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Blocks.final0 (V1 m ρ) c]
  unfold Blocks.H1 Cert.ReferenceIdeal.RefValue.hidden
  rw [V1_arg0, V1_arg2, V1_arg4, V1_v13, V1_v14, V1_v15, V1_v16, V1_v17, V1_v18, V1_v19]
  repeat rw [row0_reshape]

/-! ## What the second kernel finds -/

/-- The first kernel's result buffer at its exit. -/
theorem W2_v20 : W2 m ρ c (Proc.devRef .tc main_v20) = Cert.ReferenceIdeal.RefValue.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W2_arr m ρ c 10).trans (hidden_eq m ρ c)

/-- The edges' source list and target list survive the first kernel. -/
theorem W2_v1 : W2 m ρ c (Proc.devRef .tc main_v1) = val_main_v41 (F := Ideal) (m ((c : Thread nD τ).loc main_arg1)) := by
  rw [W2_of_ne m ρ c main_v1 (by decide)]
  show StableHlo.after hostOps0 (W0 m ρ c) (Proc.devRef .tc main_v1) = _
  after_results
  first | done | rfl

theorem W2_v3 : W2 m ρ c (Proc.devRef .tc main_v3) = val_main_v43 (F := Ideal) (m ((c : Thread nD τ).loc main_arg1)) := by
  rw [W2_of_ne m ρ c main_v3 (by decide)]
  show StableHlo.after hostOps0 (W0 m ρ c) (Proc.devRef .tc main_v3) = _
  after_results
  first | done | rfl

theorem W2_arg10 : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  after_results
  first | done | rfl

theorem W2_arg11 : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  after_results
  first | done | rfl

theorem W2_arg12 : W2 m ρ c (Proc.devRef .tc main_arg12) = (m ((c : Thread nD τ).loc main_arg12)) := by
  rw [W2_of_ne m ρ c main_arg12 (by decide)]
  show StableHlo.after hostOps0 (W0 m ρ c) (Proc.devRef .tc main_arg12) = _
  after_results
  first | done | rfl

theorem W2_arg13 : W2 m ρ c (Proc.devRef .tc main_arg13) = (m ((c : Thread nD τ).loc main_arg13)) := by
  rw [W2_of_ne m ρ c main_arg13 (by decide)]
  show StableHlo.after hostOps0 (W0 m ρ c) (Proc.devRef .tc main_arg13) = _
  after_results
  first | done | rfl

theorem W2_arg14 : W2 m ρ c (Proc.devRef .tc main_arg14) = (m ((c : Thread nD τ).loc main_arg14)) := by
  rw [W2_of_ne m ρ c main_arg14 (by decide)]
  show StableHlo.after hostOps0 (W0 m ρ c) (Proc.devRef .tc main_arg14) = _
  after_results
  first | done | rfl

theorem W2_arg15 : W2 m ρ c (Proc.devRef .tc main_arg15) = (m ((c : Thread nD τ).loc main_arg15)) := by
  rw [W2_of_ne m ρ c main_arg15 (by decide)]
  show StableHlo.after hostOps0 (W0 m ρ c) (Proc.devRef .tc main_arg15) = _
  after_results
  first | done | rfl

theorem W2_arg16 : W2 m ρ c (Proc.devRef .tc main_arg16) = (m ((c : Thread nD τ).loc main_arg16)) := by
  rw [W2_of_ne m ρ c main_arg16 (by decide)]
  show StableHlo.after hostOps0 (W0 m ρ c) (Proc.devRef .tc main_arg16) = _
  after_results
  first | done | rfl

theorem W2_arg17 : W2 m ρ c (Proc.devRef .tc main_arg17) = (m ((c : Thread nD τ).loc main_arg17)) := by
  rw [W2_of_ne m ρ c main_arg17 (by decide)]
  show StableHlo.after hostOps0 (W0 m ρ c) (Proc.devRef .tc main_arg17) = _
  after_results
  first | done | rfl

theorem W2_arg18 : W2 m ρ c (Proc.devRef .tc main_arg18) = (m ((c : Thread nD τ).loc main_arg18)) := by
  rw [W2_of_ne m ρ c main_arg18 (by decide)]
  show StableHlo.after hostOps0 (W0 m ρ c) (Proc.devRef .tc main_arg18) = _
  after_results
  first | done | rfl

theorem W2_arg19 : W2 m ρ c (Proc.devRef .tc main_arg19) = (m ((c : Thread nD τ).loc main_arg19)) := by
  rw [W2_of_ne m ρ c main_arg19 (by decide)]
  show StableHlo.after hostOps0 (W0 m ρ c) (Proc.devRef .tc main_arg19) = _
  after_results
  first | done | rfl

theorem V3_v20 : V3 m ρ c main_v20 = Cert.ReferenceIdeal.RefValue.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [← W2_v20 m ρ c]
  show StableHlo.after hostOps1 (W2 m ρ c) (Proc.devRef .tc main_v20) = _
  after_results
  first | done | rfl

theorem V3_arg10 : V3 m ρ c main_arg10 = (m ((c : Thread nD τ).loc main_arg10)) := by
  rw [← W2_arg10 m ρ c]
  show StableHlo.after hostOps1 (W2 m ρ c) (Proc.devRef .tc main_arg10) = _
  after_results
  first | done | rfl

theorem V3_arg12 : V3 m ρ c main_arg12 = (m ((c : Thread nD τ).loc main_arg12)) := by
  rw [← W2_arg12 m ρ c]
  show StableHlo.after hostOps1 (W2 m ρ c) (Proc.devRef .tc main_arg12) = _
  after_results
  first | done | rfl

theorem V3_arg18 : V3 m ρ c main_arg18 = (m ((c : Thread nD τ).loc main_arg18)) := by
  rw [← W2_arg18 m ρ c]
  show StableHlo.after hostOps1 (W2 m ρ c) (Proc.devRef .tc main_arg18) = _
  after_results
  first | done | rfl

theorem V3_v31 : (V3 m ρ c main_v31 : S1x16.Idx → EReal) = shapeCast S1x16 ((m ((c : Thread nD τ).loc main_arg11)) : S16.Idx → EReal) Facts₀.shapeCasts_S16_S1x16 := by
  rw [← W2_arg11 m ρ c]
  show StableHlo.after hostOps1 (W2 m ρ c) (Proc.devRef .tc main_v31) = _
  after_results
  first | done | rfl

theorem V3_v32 : (V3 m ρ c main_v32 : S1x16.Idx → EReal) = shapeCast S1x16 ((m ((c : Thread nD τ).loc main_arg13)) : S16.Idx → EReal) Facts₀.shapeCasts_S16_S1x16 := by
  rw [← W2_arg13 m ρ c]
  show StableHlo.after hostOps1 (W2 m ρ c) (Proc.devRef .tc main_v32) = _
  after_results
  first | done | rfl

theorem V3_v33 : (V3 m ρ c main_v33 : S1x16.Idx → EReal) = shapeCast S1x16 ((m ((c : Thread nD τ).loc main_arg14)) : S16.Idx → EReal) Facts₀.shapeCasts_S16_S1x16 := by
  rw [← W2_arg14 m ρ c]
  show StableHlo.after hostOps1 (W2 m ρ c) (Proc.devRef .tc main_v33) = _
  after_results
  first | done | rfl

theorem V3_v34 : (V3 m ρ c main_v34 : S1x16.Idx → EReal) = shapeCast S1x16 ((m ((c : Thread nD τ).loc main_arg15)) : S16.Idx → EReal) Facts₀.shapeCasts_S16_S1x16 := by
  rw [← W2_arg15 m ρ c]
  show StableHlo.after hostOps1 (W2 m ρ c) (Proc.devRef .tc main_v34) = _
  after_results
  first | done | rfl

theorem V3_v35 : (V3 m ρ c main_v35 : S1x16.Idx → EReal) = shapeCast S1x16 ((m ((c : Thread nD τ).loc main_arg16)) : S16.Idx → EReal) Facts₀.shapeCasts_S16_S1x16 := by
  rw [← W2_arg16 m ρ c]
  show StableHlo.after hostOps1 (W2 m ρ c) (Proc.devRef .tc main_v35) = _
  after_results
  first | done | rfl

theorem V3_v36 : (V3 m ρ c main_v36 : S1x16.Idx → EReal) = shapeCast S1x16 ((m ((c : Thread nD τ).loc main_arg17)) : S16.Idx → EReal) Facts₀.shapeCasts_S16_S1x16 := by
  rw [← W2_arg17 m ρ c]
  show StableHlo.after hostOps1 (W2 m ρ c) (Proc.devRef .tc main_v36) = _
  after_results
  first | done | rfl

theorem V3_v37 : (V3 m ρ c main_v37 : S1x10.Idx → EReal) = shapeCast S1x10 ((m ((c : Thread nD τ).loc main_arg19)) : S10.Idx → EReal) Facts₀.shapeCasts_S10_S1x10 := by
  rw [← W2_arg19 m ρ c]
  show StableHlo.after hostOps1 (W2 m ρ c) (Proc.devRef .tc main_v37) = _
  after_results
  first | done | rfl

/-- The second neighbour sums: the same gather and scatter-add, of the first layer's table. -/
theorem V3_v30 : (V3 m ρ c main_v30 : S100000x16.Idx → EReal) = aggOf16 (Cert.ReferenceIdeal.RefValue.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg1)) := by
  rw [← W2_v20 m ρ c]
  show StableHlo.after hostOps1 (W2 m ρ c) (Proc.devRef .tc main_v30) = _
  after_results
  rw [W2_v1 m ρ c, W2_v3 m ρ c]
  first | done | rfl

/-- The program's result array at the last boundary is the network of the argument arrays. -/
theorem result_eq : W4 m ρ c (Proc.devRef .tc main_v38) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W4_arr m ρ c 12).trans ?_
  rw [Blocks.final1 (V3 m ρ) c]
  unfold Blocks.OUT net
  rw [V3_v20, V3_v30, V3_arg10, V3_arg12, V3_arg18, V3_v31, V3_v32, V3_v33, V3_v34, V3_v35, V3_v36, V3_v37]
  repeat rw [row0_reshape]

end Cert.KernelIdeal.KV

end
-- ==== Proof.RefStage.lean ====
/-
  The reference's operation list read in two parts.

  What a buffer holds after a list of host operations is the fold of the operations' results over the contents at the
  start; the fold over a list cut in two is the fold over the second part of the fold over the first.  The list is
  cut after the second neighbour sum and again after the logits.  After the first part the first layer's table and the
  second neighbour sum hold their functions of the argument arrays, and the second layer's parameter arrays are
  untouched; the middle part computes the logits from exactly those buffers; the last part, the log-softmax written as a
  function of its own, computes the result from the logits alone.  So the result buffer after the whole list holds the reference's
  result as a function of the argument arrays.
-/
import proofs.«145324_j15719580303915_1_alg».proof.Proof.RefRead
import Idealize.ShloMosaic.Lib.StableHlo.Run

noncomputable section

namespace Cert.ReferenceIdeal.Stage

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The fold over a list cut in two. -/
theorem after_append (l1 l2 : List (HloOp τ sig (Elt Ideal))) (W : Valuation τ sig (Elt Ideal)) :
    after (l1 ++ l2) W = after l2 (after l1 W) := by
  induction l1 generalizing W with
  | nil => rfl
  | cons op l ih => exact ih (op.result W)

variable (W : Valuation τ sig (Elt Ideal))

set_option maxRecDepth 100000 in
set_option maxHeartbeats 4000000 in
/-- After the first part the first layer's table holds its function of the arguments. -/
theorem head_v39 : after (ops.take 63) W (Proc.devRef .tc main_v39) = val_main_v39 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  simp only [ops, List.take_succ_cons, List.take_zero]
  after_results_simp
  first | done | rfl

set_option maxRecDepth 100000 in
set_option maxHeartbeats 4000000 in
/-- After the first part the second neighbour sum holds its function of the arguments. -/
theorem head_v53 : after (ops.take 63) W (Proc.devRef .tc main_v53) = val_main_v53 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  simp only [ops, List.take_succ_cons, List.take_zero]
  after_results_simp
  first | done | rfl

/-! The first part writes none of the second layer's parameter arrays. -/

set_option maxRecDepth 100000 in
set_option maxHeartbeats 4000000 in
theorem head_arg10 : after (ops.take 63) W (Proc.devRef .tc main_arg10) = W (Proc.devRef .tc main_arg10) := by
  simp only [ops, List.take_succ_cons, List.take_zero]
  after_results_simp
  first | done | rfl

set_option maxRecDepth 100000 in
set_option maxHeartbeats 4000000 in
theorem head_arg11 : after (ops.take 63) W (Proc.devRef .tc main_arg11) = W (Proc.devRef .tc main_arg11) := by
  simp only [ops, List.take_succ_cons, List.take_zero]
  after_results_simp
  first | done | rfl

set_option maxRecDepth 100000 in
set_option maxHeartbeats 4000000 in
theorem head_arg12 : after (ops.take 63) W (Proc.devRef .tc main_arg12) = W (Proc.devRef .tc main_arg12) := by
  simp only [ops, List.take_succ_cons, List.take_zero]
  after_results_simp
  first | done | rfl

set_option maxRecDepth 100000 in
set_option maxHeartbeats 4000000 in
theorem head_arg13 : after (ops.take 63) W (Proc.devRef .tc main_arg13) = W (Proc.devRef .tc main_arg13) := by
  simp only [ops, List.take_succ_cons, List.take_zero]
  after_results_simp
  first | done | rfl

set_option maxRecDepth 100000 in
set_option maxHeartbeats 4000000 in
theorem head_arg14 : after (ops.take 63) W (Proc.devRef .tc main_arg14) = W (Proc.devRef .tc main_arg14) := by
  simp only [ops, List.take_succ_cons, List.take_zero]
  after_results_simp
  first | done | rfl

set_option maxRecDepth 100000 in
set_option maxHeartbeats 4000000 in
theorem head_arg15 : after (ops.take 63) W (Proc.devRef .tc main_arg15) = W (Proc.devRef .tc main_arg15) := by
  simp only [ops, List.take_succ_cons, List.take_zero]
  after_results_simp
  first | done | rfl

set_option maxRecDepth 100000 in
set_option maxHeartbeats 4000000 in
theorem head_arg16 : after (ops.take 63) W (Proc.devRef .tc main_arg16) = W (Proc.devRef .tc main_arg16) := by
  simp only [ops, List.take_succ_cons, List.take_zero]
  after_results_simp
  first | done | rfl

set_option maxRecDepth 100000 in
set_option maxHeartbeats 4000000 in
theorem head_arg17 : after (ops.take 63) W (Proc.devRef .tc main_arg17) = W (Proc.devRef .tc main_arg17) := by
  simp only [ops, List.take_succ_cons, List.take_zero]
  after_results_simp
  first | done | rfl

set_option maxRecDepth 100000 in
set_option maxHeartbeats 4000000 in
theorem head_arg18 : after (ops.take 63) W (Proc.devRef .tc main_arg18) = W (Proc.devRef .tc main_arg18) := by
  simp only [ops, List.take_succ_cons, List.take_zero]
  after_results_simp
  first | done | rfl

set_option maxRecDepth 100000 in
set_option maxHeartbeats 4000000 in
theorem head_arg19 : after (ops.take 63) W (Proc.devRef .tc main_arg19) = W (Proc.devRef .tc main_arg19) := by
  simp only [ops, List.take_succ_cons, List.take_zero]
  after_results_simp
  first | done | rfl

/-- A value written at a typed reference and read back at it is the value. -/
theorem ofBuf_toBuf {T : BufTy} (x : TRef sig T) (v : T.Contents (Elt Ideal)) : x.ofBuf (x.toBuf v) = v := by
  obtain ⟨r, rfl, _, _⟩ := x
  rfl

set_option maxRecDepth 65536 in
/-- The logits' buffer read at its tensor type is its contents. -/
theorem ofBuf_v83 (p1 : main_v83.ty = ⟨S100000x10, .f32⟩) (p2 : main_v83.space ≠ .host) (p3 : main_v83.isScoped = false)
    (v : (⟨S100000x10, .f32⟩ : BufTy).Contents (Elt Ideal)) :
    (TRef.of (T := ⟨S100000x10, .f32⟩) main_v83 p1 p2 p3).ofBuf v = v := cast_eq _ v

set_option maxRecDepth 65536 in
/-- The result written at the result buffer's tensor type is the buffer's contents. -/
theorem toBuf_v84 (p1 : main_v84.ty = ⟨S100000x10, .f32⟩) (p2 : main_v84.space ≠ .host) (p3 : main_v84.isScoped = false)
    (v : (⟨S100000x10, .f32⟩ : BufTy).Contents (Elt Ideal)) :
    (TRef.of (T := ⟨S100000x10, .f32⟩) main_v84 p1 p2 p3).toBuf v = v := cast_eq _ v

set_option maxRecDepth 100000 in
set_option maxHeartbeats 8000000 in
/-- The middle part computes the logits from the first layer's table, the second neighbour sum and the second layer's
    parameter arrays. -/
theorem mid_v83 (W' : Valuation τ sig (Elt Ideal))
    (h39 : W' (Proc.devRef .tc main_v39) = val_main_v39 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)))
    (h53 : W' (Proc.devRef .tc main_v53) = val_main_v53 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)))
    (h10 : W' (Proc.devRef .tc main_arg10) = W (Proc.devRef .tc main_arg10))
    (h11 : W' (Proc.devRef .tc main_arg11) = W (Proc.devRef .tc main_arg11))
    (h12 : W' (Proc.devRef .tc main_arg12) = W (Proc.devRef .tc main_arg12))
    (h13 : W' (Proc.devRef .tc main_arg13) = W (Proc.devRef .tc main_arg13))
    (h14 : W' (Proc.devRef .tc main_arg14) = W (Proc.devRef .tc main_arg14))
    (h15 : W' (Proc.devRef .tc main_arg15) = W (Proc.devRef .tc main_arg15))
    (h16 : W' (Proc.devRef .tc main_arg16) = W (Proc.devRef .tc main_arg16))
    (h17 : W' (Proc.devRef .tc main_arg17) = W (Proc.devRef .tc main_arg17))
    (h18 : W' (Proc.devRef .tc main_arg18) = W (Proc.devRef .tc main_arg18))
    (h19 : W' (Proc.devRef .tc main_arg19) = W (Proc.devRef .tc main_arg19)) :
    after ((ops.drop 63).take 33) W' (Proc.devRef .tc main_v83) = val_main_v83 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) := by
  simp only [ops, List.drop_succ_cons, List.drop_zero, List.take_succ_cons, List.take_zero]
  after_results_simp
  rw [h39, h53, h10, h11, h12, h13, h14, h15, h16, h17, h18, h19]
  first | done | rfl

set_option maxRecDepth 100000 in
set_option maxHeartbeats 8000000 in
/-- The last part, the log-softmax of the logits' rows, computes the result from the logits. -/
theorem tail_v84 (W'' : Valuation τ sig (Elt Ideal))
    (h83 : W'' (Proc.devRef .tc main_v83) = val_main_v83 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19))) :
    after ((ops.drop 63).drop 33) W'' (Proc.devRef .tc main_v84) = val_main_v84 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) := by
  simp only [ops, List.drop_succ_cons, List.drop_zero]
  after_results_simp
  rw [h83]
  repeat rw [ofBuf_toBuf]
  rw [ofBuf_v83, toBuf_v84]
  first | done | rfl

/-- After the whole list the result buffer holds the reference's result as a function of the argument arrays. -/
theorem whole_v84 : after ops W (Proc.devRef .tc main_v84) = val_main_v84 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) := by
  have e1 : (ops (F := Ideal)) = ops.take 63 ++ ((ops.drop 63).take 33 ++ (ops.drop 63).drop 33) := by
    rw [List.take_append_drop, List.take_append_drop]
  have e2 : after (ops (F := Ideal)) W
      = after ((ops.drop 63).drop 33) (after ((ops.drop 63).take 33) (after (ops.take 63) W)) :=
    (congrArg (fun l => after l W) e1).trans ((after_append _ _ W).trans (after_append _ _ _))
  refine (congrFun e2 _).trans (tail_v84 W _ ?_)
  exact mid_v83 W _ (head_v39 W) (head_v53 W) (head_arg10 W) (head_arg11 W) (head_arg12 W) (head_arg13 W) (head_arg14 W) (head_arg15 W) (head_arg16 W) (head_arg17 W) (head_arg18 W) (head_arg19 W)

end Cert.ReferenceIdeal.Stage

end
-- ==== Proof.RefRunValue.lean ====
/-
  The reference's run with its result read.

  The reference is a straight line of host operations.  Every weakly fair execution of it terminates; at the end every
  buffer holds the fold of the operations' results over its launch contents.  Read at the result buffer that fold is
  the reference's result as a function of the argument arrays; read at an argument buffer it is the argument, since
  no operation writes one.
-/
import proofs.«145324_j15719580303915_1_alg».proof.Proof.RefStage

noncomputable section

namespace Cert.ReferenceIdeal.RunValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

set_option maxRecDepth 65536 in
set_option maxHeartbeats 44400000 in
/-- Every weakly fair execution of the reference terminates with the result buffer at the reference's result as a
    function of the argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v84).trans (Stage.whole_v84 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl)⟩)
    (run_seq scopedRefs_eq scopedSems_eq defs main (fun _ => ops) main_eq (fun _ => ops_sub) m ρ)

end Cert.ReferenceIdeal.RunValue

end
-- ==== Proof.lean ====
/-
  The certificate of a two-layer graph-isomorphism network with a classifier head, computed by two node-block kernels,
  against its whole-table reference.

  Both programs compute, for every node r of 100000 and class c of ten,

      log-softmax_c ( dense ( layer₂ ( h₁[r] , (agg h₁)[r] ) ) ) ,     h₁[r] = layer₁ ( x[r] , (agg x)[r] ) ,

  where a layer adds a node's row to its neighbours' sum, applies two dense layers with a rectifier after each, and
  normalises each channel, and agg is the sum over incoming edges (a gather along the edges' sources and a scatter-add
  onto their targets, done by the host in both programs and never opened here).  The kernels work on blocks of 5000
  rows; an entry of a block depends on its own row only, so the twenty blocks of each kernel are the blocks of one
  whole-table function, which is the reference's.  On extended reals the roundings into each matrix product are the
  identity and a matrix product's entry is one sum, so no law of arithmetic beyond that is used, and the finiteness
  of the inputs is never needed.

  The frames of the two kernel programs are the generated ones; the reference's frame is its run with the result
  dropped; nothing was rewritten by the idealisation, so there is nothing to preserve.
-/
import proofs.«145324_j15719580303915_1_alg».proof.Defs
import proofs.«145324_j15719580303915_1_alg».proof.Proof.Gen.Kernel
import proofs.«145324_j15719580303915_1_alg».proof.Proof.Gen.Kernel.Frame
import proofs.«145324_j15719580303915_1_alg».proof.Proof.Gen.KernelIdeal
import proofs.«145324_j15719580303915_1_alg».proof.Proof.Gen.KernelIdeal.Frame
import proofs.«145324_j15719580303915_1_alg».proof.Proof.Gen.ReferenceIdeal
import proofs.«145324_j15719580303915_1_alg».proof.Proof.Gen.Pre_finite_inputs
import proofs.«145324_j15719580303915_1_alg».proof.Proof.KernelRun
import proofs.«145324_j15719580303915_1_alg».proof.Proof.KernelValue
import proofs.«145324_j15719580303915_1_alg».proof.Proof.RefRunValue
import proofs.«145324_j15719580303915_1_alg».proof.Proof.RefValue
import Idealize.ShloMosaic.Adequacy
import Idealize.ShloMosaic.Init

noncomputable section

namespace Cert.Proof

open Idealize.ShloMosaic Idealize.ShloMosaic.TcCoe Idealize.SL.Sem

/-- The reference terminates without a fault and leaves its arguments as launched: its run, the result dropped. -/
theorem frame_reference : Cert.frame_ReferenceIdeal := fun m ρ _ =>
  (θ_run Cert.ReferenceIdeal.defs _ _).mono (fun _ h c => (h c).2) (Cert.ReferenceIdeal.RunValue.run m ρ)

/-- From memories agreeing on the arguments both programs end with the network of the arguments in their result arrays:
    the kernel program by its run and the reading of its result array back to the arguments, the reference by its run
    and its reading entry by entry. -/
theorem algebraic : Cert.algebraic_KernelIdeal_ReferenceIdeal := by
  intro m ρ m' ρ' _ hagree
  refine ⟨fun c => Cert.ReferenceIdeal.RefValue.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun _ h c => ⟨(h c).1.trans (Cert.KernelIdeal.KV.result_eq m ρ c), (h c).2⟩) (Cert.KernelIdeal.RunValue.run_out m ρ)
  · refine (θ_run Cert.ReferenceIdeal.defs _ _).mono (fun _ h c => ⟨(h c).1.trans ?_, (h c).2⟩)
      (Cert.ReferenceIdeal.RunValue.run m' ρ')
    obtain ⟨e0, e1, e2, e3, e4, e5, e6, e7, e8, e9, e10, e11, e12, e13, e14, e15, e16, e17, e18, e19⟩ := hagree c
    rw [Cert.ReferenceIdeal.RefValue.ref_eq, e0, e1, e2, e3, e4, e5, e6, e7, e8, e9, e10, e11, e12, e13, e14, e15, e16, e17, e18, e19]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
